-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x512 : Shape := ⟨3, ![8, 2048, 512]⟩
abbrev S512x1024 : Shape := ⟨2, ![512, 1024]⟩
abbrev S1024x512 : Shape := ⟨2, ![1024, 512]⟩
abbrev S512 : Shape := ⟨1, ![512]⟩
abbrev S_ : Shape := ⟨0, ![]⟩

class Facts : Prop where
  bcast_S_S8x2048x512 : S_.BroadcastsInDim S8x2048x512 (![] : Fin 0 → Fin S8x2048x512.rank)
  reducesTo_S8x2048x512_S_d0_1_2 : S8x2048x512.ReducesTo [0, 1, 2] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S1024x512 : S_.BroadcastsInDim S1024x512 (![] : Fin 0 → Fin S1024x512.rank)
  reducesTo_S1024x512_S_d0_1 : S1024x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x1024 .f32) (main_arg5 : FVec F S1024x512 .f32) (main_arg6 : FVec F S512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512x1024 .f32 := Host.absf main_arg4
  let main_cst_6 : FVec F S_ .f32 := constant S_ .f32 0x7F800000#32
  let main_v20 : FVec F S512x1024 .f32 := broadcastInDim S512x1024 ![] bcast_S_S512x1024 main_cst_6
  let main_v21 : IVec S512x1024 1 := cmpf .olt main_v19 main_v20
  let main_c_7 : IVec S_ 1 := constantI S_ 1 1#1
  let main_v22 : IVec S_ 1 := (fun x v => Host.reduce IntOp.andi x v reducesTo_S512x1024_S_d0_1 h_S_) main_v21 main_c_7
  let main_v23 : IVec S_ 1 := andi main_v18 main_v22
  let main_v24 : FVec F S1024x512 .f32 := Host.absf main_arg5
  let main_cst_8 : FVec F S_ .f32 := constant S_ .f32 0x7F800000#32
  let main_v25 : FVec F S1024x512 .f32 := broadcastInDim S1024x512 ![] bcast_S_S1024x512 main_cst_8
  let main_v26 : IVec S1024x512 1 := cmpf .olt main_v24 main_v25
  let main_c_9 : IVec S_ 1 := constantI S_ 1 1#1
  let main_v27 : IVec S_ 1 := (fun x v => Host.reduce IntOp.andi x v reducesTo_S1024x512_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S8x2048x512 .f32) (main_arg1 : FVec F S8x2048x512 .f32) (main_arg2 : FVec F S512x1024 .f32) (main_arg3 : FVec F S512x1024 .f32) (main_arg4 : FVec F S512x1024 .f32) (main_arg5 : FVec F S1024x512 .f32) (main_arg6 : FVec F S512 .f32) : IVec S_ 1 :=
  let main_v0 : FVec F S8x2048x512 .f32 := Host.absf main_arg0
  let main_cst : FVec F S_ .f32 := constant S_ .f32 0x7F800000#32
  let main_v1 : FVec F S8x2048x512 .f32 := broadcastInDim S8x2048x512 ![] bcast_S_S8x2048x512 main_cst
  let main_v2 : IVec S8x2048x512 1 := cmpf .olt main_v0 main_v1
  let main_c : IVec S_ 1 := constantI S_ 1 1#1
  let main_v3 : IVec S_ 1 := (fun x v => Host.reduce IntOp.andi x v reducesTo_S8x2048x512_S_d0_1_2 h_S_) main_v2 main_c
  let main_v4 : FVec F S8x2048x512 .f32 := Host.absf main_arg1
  let main_cst_0 : FVec F S_ .f32 := constant S_ .f32 0x7F800000#32
  let main_v5 : FVec F S8x2048x512 .f32 := broadcastInDim S8x2048x512 ![] bcast_S_S8x2048x512 main_cst_0
  let main_v6 : IVec S8x2048x512 1 := cmpf .olt main_v4 main_v5
  let main_c_1 : IVec S_ 1 := constantI S_ 1 1#1
  let main_v7 : IVec S_ 1 := (fun x v => Host.reduce IntOp.andi x v reducesTo_S8x2048x512_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_v13 main_v16
-- ==== Kernel.lean ====
abbrev S8x2048x512 : Shape := ⟨3, ![8, 2048, 512]⟩
abbrev S512x1024 : Shape := ⟨2, ![512, 1024]⟩
abbrev S1024x512 : Shape := ⟨2, ![1024, 512]⟩
abbrev S512 : Shape := ⟨1, ![512]⟩
abbrev S1x512 : Shape := ⟨2, ![1, 512]⟩
abbrev S1x256x512 : Shape := ⟨3, ![1, 256, 512]⟩
abbrev S1x2048x512 : Shape := ⟨3, ![1, 2048, 512]⟩
abbrev S1024x2048 : Shape := ⟨2, ![1024, 2048]⟩
abbrev S2048x1024 : Shape := ⟨2, ![2048, 1024]⟩
abbrev S2048x512 : Shape := ⟨2, ![2048, 512]⟩
abbrev S256x512 : Shape := ⟨2, ![256, 512]⟩
abbrev S256x1024 : Shape := ⟨2, ![256, 1024]⟩
abbrev S256x1 : Shape := ⟨2, ![256, 1]⟩
abbrev S256 : Shape := ⟨1, ![256]⟩

abbrev nBuf : Space → Nat
  | .hbm => 13
  | .vmem => 12
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S1024x512, .f32⟩
  | .hbm, ⟨6, _⟩ => ⟨S512, .f32⟩
  | .hbm, ⟨7, _⟩ => ⟨S512x1024, .bf16⟩
  | .hbm, ⟨8, _⟩ => ⟨S512x1024, .bf16⟩
  | .hbm, ⟨9, _⟩ => ⟨S512x1024, .bf16⟩
  | .hbm, ⟨10, _⟩ => ⟨S1024x512, .bf16⟩
  | .hbm, ⟨11, _⟩ => ⟨S1x512, .f32⟩
  | .hbm, ⟨12, _⟩ => ⟨S8x2048x512, .f32⟩
  | .local _ .vmem, ⟨0, _⟩ => ⟨S1x256x512, .f32⟩
  | .local _ .vmem, ⟨1, _⟩ => ⟨S1x256x512, .f32⟩
  | .local _ .vmem, ⟨2, _⟩ => ⟨S1x2048x512, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S1024x512, .bf16⟩
  | .local _ .vmem, ⟨7, _⟩ => ⟨S1x512, .f32⟩
  | .local _ .vmem, ⟨8, _⟩ => ⟨S1x256x512, .f32⟩
  | .local _ .vmem, ⟨9, _⟩ => ⟨S1x256x512, .f32⟩
  | .local _ .vmem, ⟨10, _⟩ => ⟨S1024x2048, .f32⟩
  | .local _ .vmem, ⟨11, _⟩ => ⟨S2048x1024, .bf16⟩
  | _, _ => ⟨S8x2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  bitsLt_bf16_f32 : FTy.bits .bf16 < FTy.bits .f32
  shapeCasts_S512_S1x512 : S512.ShapeCasts S1x512
  inb_S1x2048x512_S1x2048x512_0_0_0 : ∀ a, (![0, 0, 0] : Fin 3 → Nat) a + S1x2048x512.size a ≤ S1x2048x512.size a
  h_S1x2048x512 : 0 < S1x2048x512.numel
  shapeCasts_S1x2048x512_S2048x512 : S1x2048x512.ShapeCasts S2048x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  transposes_S2048x1024_p1_0_S1024x2048 : S2048x1024.Transposes [1, 0] S1024x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S1x256x512_S1x256x512_0_0_0 : ∀ a, (![0, 0, 0] : Fin 3 → Nat) a + S1x256x512.size a ≤ S1x256x512.size a
  h_S1x256x512 : 0 < S1x256x512.numel
  shapeCasts_S1x256x512_S256x512 : S1x256x512.ShapeCasts S256x512
  inb_S1024x2048_S1024x512_0_0 : ∀ a, (![0, 0] : Fin 2 → Nat) a + S1024x512.size a ≤ S1024x2048.size a
  h_S1024x512 : 0 < S1024x512.numel
  inb_S2048x1024_S512x1024_0_0 : ∀ a, (![0, 0] : Fin 2 → Nat) a + S512x1024.size a ≤ S2048x1024.size a
  reduces_S256x512_S256 : S256x512.Reduces [1] S256
  shapeCasts_S256_S256x1 : S256.ShapeCasts S256x1
  broadcasts_S256x1_S256x512 : S256x1.Broadcasts S256x512
  broadcasts_S256x1_S256x1024 : S256x1.Broadcasts S256x1024
  inb_S1024x2048_S1024x512_0_512 : ∀ a, (![0, 512] : Fin 2 → Nat) a + S1024x512.size a ≤ S1024x2048.size a
  inb_S2048x1024_S512x1024_512_0 : ∀ a, (![512, 0] : Fin 2 → Nat) a + S512x1024.size a ≤ S2048x1024.size a
  inb_S1024x2048_S1024x512_0_1024 : ∀ a, (![0, 1024] : Fin 2 → Nat) a + S1024x512.size a ≤ S1024x2048.size a
  inb_S2048x1024_S512x1024_1024_0 : ∀ a, (![1024, 0] : Fin 2 → Nat) a + S512x1024.size a ≤ S2048x1024.size a
  inb_S1024x2048_S1024x512_0_1536 : ∀ a, (![0, 1536] : Fin 2 → Nat) a + S1024x512.size a ≤ S1024x2048.size a
  inb_S2048x1024_S512x1024_1536_0 : ∀ a, (![1536, 0] : Fin 2 → Nat) a + S512x1024.size a ≤ S2048x1024.size a
  inb_S1024x512_S1024x512_0_0 : ∀ a, (![0, 0] : Fin 2 → Nat) a + S1024x512.size a ≤ S1024x512.size a
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  shapeCasts_S256x512_S1x256x512 : S256x512.ShapeCasts S1x256x512
  dot_S2048x512_S512x1024_S2048x1024_1_0_0_1_n_n_wf : DotDims.WF S2048x512 S512x1024 S2048x1024 [1] [0] [0] [1] [] []
  dot_S256x512_S512x1024_S256x1024_1_0_0_1_n_n_wf : DotDims.WF S256x512 S512x1024 S256x1024 [1] [0] [0] [1] [] []
  dot_S256x1024_S1024x512_S256x512_1_0_0_1_n_n_wf : DotDims.WF S256x1024 S1024x512 S256x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512.size a ≤ S8x2048x512.size a
  hwx0_0 : ∀ i : grid0.Coords, EltTy.bits .f32 = 32 ∨ (Rect.block (s := S8x2048x512) S1x256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x512.size a ≤ S8x2048x512.size a
  hwx0_1 : ∀ i : grid0.Coords, EltTy.bits .f32 = 32 ∨ (Rect.block (s := S8x2048x512) S1x2048x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S512x1024.size a
  hwx0_4 : ∀ i : grid0.Coords, EltTy.bits .bf16 = 32 ∨ (Rect.block (s := S512x1024) S512x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x512.size a ≤ S1024x512.size a
  hwx0_5 : ∀ i : grid0.Coords, EltTy.bits .bf16 = 32 ∨ (Rect.block (s := S1024x512) S1024x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x256x512.size a ≤ S8x2048x512.size a
  hwx0_7 : ∀ i : grid0.Coords, EltTy.bits .f32 = 32 ∨ (Rect.block (s := S8x2048x512) S1x256x512.size (cc0_transform_7 i) (hinb0_7 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf
def dot_S256x512_S512x1024_S256x1024_1_0_0_1_n_n : DotDims S256x512 S512x1024 S256x1024 where
  lhsContracting := [1]
  rhsContracting := [0]
  lhsNonContracting := [0]
  rhsNonContracting := [1]
  lhsBatch := []
  rhsBatch := []
  wf := dot_S256x512_S512x1024_S256x1024_1_0_0_1_n_n_wf
def dot_S256x1024_S1024x512_S256x512_1_0_0_1_n_n : DotDims S256x1024 S1024x512 S256x512 where
  lhsContracting := [1]
  rhsContracting := [0]
  lhsNonContracting := [0]
  rhsNonContracting := [1]
  lhsBatch := []
  rhsBatch := []
  wf := dot_S256x1024_S1024x512_S256x512_1_0_0_1_n_n_wf

abbrev win0_0 : Pipeline.Window sig grid0 :=
  Pipeline.Window.ofSpec (Memref.whole main_arg1) S1x256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S1x2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1024x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x256x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8x2048x512 : Shape := ⟨3, ![8, 2048, 512]⟩
abbrev S512x1024 : Shape := ⟨2, ![512, 1024]⟩
abbrev S1024x512 : Shape := ⟨2, ![1024, 512]⟩
abbrev S512 : Shape := ⟨1, ![512]⟩
abbrev S8x2048x1024 : Shape := ⟨3, ![8, 2048, 1024]⟩
abbrev S8x2048x2048 : Shape := ⟨3, ![8, 2048, 2048]⟩
abbrev S_ : Shape := ⟨0, ![]⟩
abbrev S8x2048 : Shape := ⟨2, ![8, 2048]⟩
abbrev S8x2048x1 : Shape := ⟨3, ![8, 2048, 1]⟩
abbrev S1x1x512 : Shape := ⟨3, ![1, 1, 512]⟩

abbrev nBuf : Space → Nat
  | .hbm => 30
  | .vmem => 0
  | .smem => 0
  | _ => 0

abbrev bufTy : (tb : Table) → Fin (tcTables nBuf tb) → BufTy
  | .hbm, ⟨0, _⟩ => ⟨S8x2048x512, .f32⟩
  | .hbm, ⟨1, _⟩ => ⟨S8x2048x512, .f32⟩
  | .hbm, ⟨2, _⟩ => ⟨S512x1024, .f32⟩
  | .hbm, ⟨3, _⟩ => ⟨S512x1024, .f32⟩
  | .hbm, ⟨4, _⟩ => ⟨S512x1024, .f32⟩
  | .hbm, ⟨5, _⟩ => ⟨S1024x512, .f32⟩
  | .hbm, ⟨6, _⟩ => ⟨S512, .f32⟩
  | .hbm, ⟨7, _⟩ => ⟨S8x2048x1024, .f32⟩
  | .hbm, ⟨8, _⟩ => ⟨S8x2048x1024, .f32⟩
  | .hbm, ⟨9, _⟩ => ⟨S8x2048x1024, .f32⟩
  | .hbm, ⟨10, _⟩ => ⟨S8x2048x2048, .f32⟩
  | .hbm, ⟨11, _⟩ => ⟨S_, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048x1, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048, .f32⟩
  | .hbm, ⟨22, _⟩ => ⟨S8x2048x1, .f32⟩
  | .hbm, ⟨23, _⟩ => ⟨S8x2048x2048, .f32⟩
  | .hbm, ⟨24, _⟩ => ⟨S8x2048x2048, .f32⟩
  | .hbm, ⟨25, _⟩ => ⟨S8x2048x1024, .f32⟩
  | .hbm, ⟨26, _⟩ => ⟨S8x2048x512, .f32⟩
  | .hbm, ⟨27, _⟩ => ⟨S1x1x512, .f32⟩
  | .hbm, ⟨28, _⟩ => ⟨S8x2048x512, .f32⟩
  | .hbm, ⟨29, _⟩ => ⟨S8x2048x512, .f32⟩
  | _, _ => ⟨S8x2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  bcast_S512_S1x1x512_2 : S512.BroadcastsInDim S1x1x512 (![2] : Fin 1 → Fin S1x1x512.rank)
  bcast_S1x1x512_S8x2048x512_0_1_2 : S1x1x512.BroadcastsInDim S8x2048x512 (![0, 1, 2] : Fin 3 → Fin S8x2048x512.rank)
  dot_S8x2048x512_S512x1024_S8x2048x1024_2_0_01_1_n_n_wf : DotDims.WF S8x2048x512 S512x1024 S8x2048x1024 [2] [0] [0, 1] [1] [] []
  dot_S8x2048x1024_S8x2048x1024_S8x2048x2048_2_2_1_1_0_0_wf : DotDims.WF S8x2048x1024 S8x2048x1024 S8x2048x2048 [2] [2] [1] [1] [0] [0]
  dot_S8x2048x2048_S8x2048x1024_S8x2048x1024_2_1_1_2_0_0_wf : DotDims.WF S8x2048x2048 S8x2048x1024 S8x2048x1024 [2] [1] [1] [2] [0] [0]
  dot_S8x2048x1024_S1024x512_S8x2048x512_2_0_01_1_n_n_wf : DotDims.WF S8x2048x1024 S1024x512 S8x2048x512 [2] [0] [0, 1] [1] [] []

variable [Facts₀]

def dot_S8x2048x512_S512x1024_S8x2048x1024_2_0_01_1_n_n : DotDims S8x2048x512 S512x1024 S8x2048x1024 where
  lhsContracting := [2]
  rhsContracting := [0]
  lhsNonContracting := [0, 1]
  rhsNonContracting := [1]
  lhsBatch := []
  rhsBatch := []
  wf := dot_S8x2048x512_S512x1024_S8x2048x1024_2_0_01_1_n_n_wf
def dot_S8x2048x1024_S8x2048x1024_S8x2048x2048_2_2_1_1_0_0 : DotDims S8x2048x1024 S8x2048x1024 S8x2048x2048 where
  lhsContracting := [2]
  rhsContracting := [2]
  lhsNonContracting := [1]
  rhsNonContracting := [1]
  lhsBatch := [0]
  rhsBatch := [0]
  wf := dot_S8x2048x1024_S8x2048x1024_S8x2048x2048_2_2_1_1_0_0_wf
def dot_S8x2048x2048_S8x2048x1024_S8x2048x1024_2_1_1_2_0_0 : DotDims S8x2048x2048 S8x2048x1024 S8x2048x1024 where
  lhsContracting := [2]
  rhsContracting := [1]
  lhsNonContracting := [1]
  rhsNonContracting := [2]
  lhsBatch := [0]
  rhsBatch := [0]
  wf := dot_S8x2048x2048_S8x2048x1024_S8x2048x1024_2_1_1_2_0_0_wf
def dot_S8x2048x1024_S1024x512_S8x2048x512_2_0_01_1_n_n : DotDims S8x2048x1024 S1024x512 S8x2048x512 where
  lhsContracting := [2]
  rhsContracting := [0]
  lhsNonContracting := [0, 1]
  rhsNonContracting := [1]
  lhsBatch := []
  rhsBatch := []
  wf := dot_S8x2048x1024_S1024x512_S8x2048x512_2_0_01_1_n_n_wf

class Facts : Prop extends Facts₀ where

variable [Facts]
-- ==== Proof.KernelBlocks.lean ====
/-
  What the body is handed at a grid point, read at coordinates.

  The grid has 64 points, point `t` handling batch `t / 8` and query tile `t % 8` (256 rows). The weights reach the
  region through format changes that are the identity on the extended reals, and the bias through a cast of
  `[512]` to the row `[1, 512]`; so the blocks the body loads are: the query tile — rows `256·(t % 8) …` of batch
  `t / 8` of the query source —, all 2048 rows of batch `t / 8` of the key/value source, and the whole weight and
  bias arrays.
-/
import proofs.«173240_j14663018348623_2_alg».proof.Proof.Gen.KernelIdeal.Value
import Idealize.ShloMosaic.Lib.StableHlo.Run
import Idealize.ShloMosaic.Lib.ValueIdx
import Idealize.ShloMosaic.Lib.ValueLayout
import Idealize.ShloMosaic.Lib.Pipeline.Value

noncomputable section

namespace Cert.KernelIdeal.Blocks

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

/-- The argument arrays as launched, on core `c`. -/
abbrev aS1 (c : Dev nD) : S8x2048x512.Idx → EReal := m ((c : Thread nD τ).loc main_arg0)
abbrev aS2 (c : Dev nD) : S8x2048x512.Idx → EReal := m ((c : Thread nD τ).loc main_arg1)
abbrev aWq (c : Dev nD) : S512x1024.Idx → EReal := m ((c : Thread nD τ).loc main_arg2)
abbrev aWk (c : Dev nD) : S512x1024.Idx → EReal := m ((c : Thread nD τ).loc main_arg3)
abbrev aWv (c : Dev nD) : S512x1024.Idx → EReal := m ((c : Thread nD τ).loc main_arg4)
abbrev aWo (c : Dev nD) : S1024x512.Idx → EReal := m ((c : Thread nD τ).loc main_arg5)
abbrev abo (c : Dev nD) : S512.Idx → EReal := m ((c : Thread nD τ).loc main_arg6)

/-! ## The arrays the region finds -/

theorem V_wq (c : Dev nD) : (V m c main_v0 : S512x1024.Idx → EReal) = aWq m c := by
  dsimp only [V, hostOps0]; after_results; rfl
theorem V_wk (c : Dev nD) : (V m c main_v1 : S512x1024.Idx → EReal) = aWk m c := by
  dsimp only [V, hostOps0]; after_results; rfl
theorem V_wv (c : Dev nD) : (V m c main_v2 : S512x1024.Idx → EReal) = aWv m c := by
  dsimp only [V, hostOps0]; after_results; rfl
theorem V_wo (c : Dev nD) : (V m c main_v3 : S1024x512.Idx → EReal) = aWo m c := by
  dsimp only [V, hostOps0]; after_results; rfl
theorem V_bo (c : Dev nD) : (V m c main_v4 : S1x512.Idx → EReal) = shapeCast S1x512 (abo m c) shapeCasts_S512_S1x512 := by
  dsimp only [V, hostOps0]; after_results; rfl

/-! ## The index maps, decided over the grid -/

theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 3) = t.val / 8 ∧ win0_7.index t (1 : Fin 3) = t.val % 8 ∧ win0_7.index t (2 : Fin 3) = 0 :=
  (by decide +kernel : ∀ t : Fin grid0.N, _)

/-- A grid point's batch. -/
def batch (t : Fin cfg0.N) : Fin 8 := ⟨t.val / 8, by have h := t.isLt; have hN : cfg0.N = 64 := N_0; omega⟩

/-- The first query row of a grid point's tile. -/
def row0 (t : Fin cfg0.N) : ℕ := (t.val % 8) * 256

theorem row0_le (t : Fin cfg0.N) : row0 t + 256 ≤ 2048 := by unfold row0; omega

/-! ## The input blocks at coordinates -/

/-- The query tile: row `p` of the tile is row `row0 t + p` of batch `batch t` of the query source. -/
theorem tile_apply (c : Dev nD) (t : Fin cfg0.N) (p : Fin 256) (d : Fin 512) :
    (iblk m c 0 t : Vec Ideal S1x256x512 .f32) (ix3 (0 : Fin 1) p d)
      = aS2 m c (ix3 (batch t) ⟨row0 t + p.val, by have := row0_le t; have := p.isLt; omega⟩ d) := by
  obtain ⟨e0, e1, e2, -⟩ := idx_facts t
  unfold iblk
  rw [View.read_apply]
  show V m c main_arg1 _ = m ((c : Thread nD τ).loc main_arg1) _
  rw [V_main_arg1]
  refine congrArg (m ((c : Thread nD τ).loc main_arg1)) (funext fun a => Fin.ext ?_)
  match a with
  | ⟨0, _⟩ => show win0_0.index t (0 : Fin 3) * 1 + 1 * 0 = t.val / 8; omega
  | ⟨1, _⟩ => show win0_0.index t (1 : Fin 3) * 256 + 1 * p.val = (t.val % 8) * 256 + p.val; omega
  | ⟨2, _⟩ => show win0_0.index t (2 : Fin 3) * 512 + 1 * d.val = d.val; omega

/-- The key/value source block: all 2048 rows of batch `batch t`. -/
theorem source_apply (c : Dev nD) (t : Fin cfg0.N) (r : Fin 2048) (d : Fin 512) :
    (iblk m c 1 t : Vec Ideal S1x2048x512 .f32) (ix3 (0 : Fin 1) r d) = aS1 m c (ix3 (batch t) r d) := by
  obtain ⟨-, -, -, e0, e1, e2, -⟩ := idx_facts t
  unfold iblk
  rw [View.read_apply]
  show V m c main_arg0 _ = m ((c : Thread nD τ).loc main_arg0) _
  rw [V_main_arg0]
  refine congrArg (m ((c : Thread nD τ).loc main_arg0)) (funext fun a => Fin.ext ?_)
  match a with
  | ⟨0, _⟩ => show win0_1.index t (0 : Fin 3) * 1 + 1 * 0 = t.val / 8; omega
  | ⟨1, _⟩ => show win0_1.index t (1 : Fin 3) * 2048 + 1 * r.val = r.val; omega
  | ⟨2, _⟩ => show win0_1.index t (2 : Fin 3) * 512 + 1 * d.val = d.val; omega

end Cert.KernelIdeal.Blocks

end
-- ==== Proof.KernelWeights.lean ====
/-
  The weight and bias blocks the body loads, read at coordinates: each is its whole array.

  The three input weights, the output weights and the bias row have one block (block index `(0, 0)` at every grid
  point), and the arrays the region finds for them are the launched arguments (format changes are the identity on
  the extended reals; the bias is the argument cast to a row).
-/
import proofs.«173240_j14663018348623_2_alg».proof.Proof.KernelBlocks

noncomputable section

namespace Cert.KernelIdeal.Blocks

open Idealize.ShloMosaic Idealize.ShloMosaic.TcCoe Idealize.SL.Sem Idealize.ShloMosaic.ValueIdx Idealize.ShloMosaic.StableHlo
open Cert.KernelIdeal Cert.KernelIdeal.Gen

variable (m : (ℓ : Loc nD τ sig) → Buf (Elt Ideal) ℓ)

/-- The query weights' block is the query weights. -/
theorem wq_apply (c : Dev nD) (t : Fin cfg0.N) (d : Fin 512) (e : Fin 1024) :
    (iblk m c 2 t : Vec Ideal S512x1024 .bf16) (ix2 d e) = aWq m c (ix2 d e) := by
  obtain ⟨-, -, -, -, -, -, e0, e1, -⟩ := idx_facts t
  unfold iblk
  rw [View.read_apply]
  show (V m c main_v0 : S512x1024.Idx → EReal) _ = _
  rw [V_wq]
  refine congrArg (aWq m c) (funext fun a => Fin.ext ?_)
  match a with
  | ⟨0, _⟩ => show win0_2.index t (0 : Fin 2) * 512 + 1 * d.val = d.val; omega
  | ⟨1, _⟩ => show win0_2.index t (1 : Fin 2) * 1024 + 1 * e.val = e.val; omega

/-- The key weights' block is the key weights. -/
theorem wk_apply (c : Dev nD) (t : Fin cfg0.N) (d : Fin 512) (e : Fin 1024) :
    (iblk m c 3 t : Vec Ideal S512x1024 .bf16) (ix2 d e) = aWk m c (ix2 d e) := by
  obtain ⟨-, -, -, -, -, -, -, -, e0, e1, -⟩ := idx_facts t
  unfold iblk
  rw [View.read_apply]
  show (V m c main_v1 : S512x1024.Idx → EReal) _ = _
  rw [V_wk]
  refine congrArg (aWk m c) (funext fun a => Fin.ext ?_)
  match a with
  | ⟨0, _⟩ => show win0_3.index t (0 : Fin 2) * 512 + 1 * d.val = d.val; omega
  | ⟨1, _⟩ => show win0_3.index t (1 : Fin 2) * 1024 + 1 * e.val = e.val; omega

/-- The value weights' block is the value weights. -/
theorem wv_apply (c : Dev nD) (t : Fin cfg0.N) (d : Fin 512) (e : Fin 1024) :
    (iblk m c 4 t : Vec Ideal S512x1024 .bf16) (ix2 d e) = aWv m c (ix2 d e) := by
  obtain ⟨-, -, -, -, -, -, -, -, -, -, e0, e1, -⟩ := idx_facts t
  unfold iblk
  rw [View.read_apply]
  show (V m c main_v2 : S512x1024.Idx → EReal) _ = _
  rw [V_wv]
  refine congrArg (aWv m c) (funext fun a => Fin.ext ?_)
  match a with
  | ⟨0, _⟩ => show win0_4.index t (0 : Fin 2) * 512 + 1 * d.val = d.val; omega
  | ⟨1, _⟩ => show win0_4.index t (1 : Fin 2) * 1024 + 1 * e.val = e.val; omega

/-- The output weights' block is the output weights. -/
theorem wo_apply (c : Dev nD) (t : Fin cfg0.N) (e : Fin 1024) (k : Fin 512) :
    (iblk m c 5 t : Vec Ideal S1024x512 .bf16) (ix2 e k) = aWo m c (ix2 e k) := by
  obtain ⟨-, -, -, -, -, -, -, -, -, -, -, -, e0, e1, -⟩ := idx_facts t
  unfold iblk
  rw [View.read_apply]
  show (V m c main_v3 : S1024x512.Idx → EReal) _ = _
  rw [V_wo]
  refine congrArg (aWo m c) (funext fun a => Fin.ext ?_)
  match a with
  | ⟨0, _⟩ => show win0_5.index t (0 : Fin 2) * 1024 + 1 * e.val = e.val; omega
  | ⟨1, _⟩ => show win0_5.index t (1 : Fin 2) * 512 + 1 * k.val = k.val; omega

/-- The bias row's block is the bias. -/
theorem bias_apply (c : Dev nD) (t : Fin cfg0.N) (k : Fin 512) :
    (iblk m c 6 t : Vec Ideal S1x512 .f32) (ix2 (0 : Fin 1) k) = abo m c (ix1 k) := by
  obtain ⟨-, -, -, -, -, -, -, -, -, -, -, -, -, -, e0, e1, -⟩ := idx_facts t
  unfold iblk
  rw [View.read_apply]
  show (V m c main_v4 : S1x512.Idx → EReal) _ = _
  rw [V_bo]
  refine Eq.trans (congrArg (shapeCast S1x512 (abo m c) shapeCasts_S512_S1x512) (?_ : _ = ix2 (0 : Fin 1) k)) ?_
  · funext a
    refine Fin.ext ?_
    match a with
    | ⟨0, _⟩ => show win0_6.index t (0 : Fin 2) * 1 + 1 * 0 = 0; omega
    | ⟨1, _⟩ => show win0_6.index t (1 : Fin 2) * 512 + 1 * k.val = k.val; omega
  · exact shapeCast_a_1a_apply _ shapeCasts_S512_S1x512 (0 : Fin 1) k

end Cert.KernelIdeal.Blocks

end
-- ==== Proof.KernelPieces.lean ====
/-
  What one grid point's body leaves, as pure terms of what it loads.

  A point handles one tile of 256 query rows of one batch. Its output block is ONE function (`tile`) of the query
  tile, the query / output weights, the bias, and the two caches the body reads chunk by chunk: the transposed key
  projections (1024 × 2048) and the value projections (2048 × 1024). At the first tile of a batch the body first
  computes both caches from the batch's key/value source rows and stores them whole (`cacheK_first`, `cacheV_first`)
  and then reads them back, so its output is `tile` of those freshly stored caches (`out_first`); at every other tile
  the caches are what the point before left (`out_later`).
-/
import proofs.«173240_j14663018348623_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.Tactic

namespace Cert.KernelIdeal.Pieces

open Cert.KernelIdeal Cert.KernelIdeal.Gen

variable {F : FTy → Type} [FloatOps F]

theorem hz3 : (![0, 0, 0] : Fin 3 → Nat) = fun _ => 0 := funext fun a => by fin_cases a <;> rfl
theorem hz2 : (![0, 0] : Fin 2 → Nat) = fun _ => 0 := funext fun a => by fin_cases a <;> rfl

/-- A load of any rectangle after ONE store that filled the whole buffer reads that rectangle of the stored value. -/
theorem readCov_whole {Val : EltTy → Type} [∀ e, Nonempty (Val e)] {S : Shape} {e : EltTy} {sig : RefSig} {κ : Kind} {sp : Space}
    (v : View sig κ sp S e) {off : Fin S.rank → Nat} (h : off = fun _ => 0) (inb : ∀ a, off a + S.size a ≤ S.size a)
    (w : S.Idx → Val e) (r : Rect S) :
    v.readCov [(⟨Rect.unit off S.size inb, w⟩ : View.Piece Val S e)] r.toLoadRect = View.ld w r := by
  rw [View.readCov_eq_canon_ld _ _ _ (fun y => ⟨_, List.mem_singleton_self _, View.mem_set_unit_zero h inb y⟩),
    View.canon_unit_zero h]

/-- Key chunk `k` of four: columns `512·k … 512·k + 511` of the transposed key cache. -/
abbrev keys0 (ks : Vec F S1024x2048 .f32) : Vec F S1024x512 .f32 := View.ld ks (Rect.unit ![0, 0] S1024x512.size inb_S1024x2048_S1024x512_0_0)
abbrev keys1 (ks : Vec F S1024x2048 .f32) : Vec F S1024x512 .f32 := View.ld ks (Rect.unit ![0, 512] S1024x512.size inb_S1024x2048_S1024x512_0_512)
abbrev keys2 (ks : Vec F S1024x2048 .f32) : Vec F S1024x512 .f32 := View.ld ks (Rect.unit ![0, 1024] S1024x512.size inb_S1024x2048_S1024x512_0_1024)
abbrev keys3 (ks : Vec F S1024x2048 .f32) : Vec F S1024x512 .f32 := View.ld ks (Rect.unit ![0, 1536] S1024x512.size inb_S1024x2048_S1024x512_0_1536)
/-- Value chunk `k` of four: rows `512·k … 512·k + 511` of the value cache. -/
abbrev vals0 (vs : Vec F S2048x1024 .bf16) : Vec F S512x1024 .bf16 := View.ld vs (Rect.unit ![0, 0] S512x1024.size inb_S2048x1024_S512x1024_0_0)
abbrev vals1 (vs : Vec F S2048x1024 .bf16) : Vec F S512x1024 .bf16 := View.ld vs (Rect.unit ![512, 0] S512x1024.size inb_S2048x1024_S512x1024_512_0)
abbrev vals2 (vs : Vec F S2048x1024 .bf16) : Vec F S512x1024 .bf16 := View.ld vs (Rect.unit ![1024, 0] S512x1024.size inb_S2048x1024_S512x1024_1024_0)
abbrev vals3 (vs : Vec F S2048x1024 .bf16) : Vec F S512x1024 .bf16 := View.ld vs (Rect.unit ![1536, 0] S512x1024.size inb_S2048x1024_S512x1024_1536_0)

/-- THE TILE: the output block of one grid point from the query tile `x0`, the query weights `wq`, the output weights
    `wo`, the bias row `bo` and the two caches — the body's arithmetic, the four chunks in order. -/
def tile (x0 : Vec F S1x256x512 .f32) (wq : Vec F S512x1024 .bf16) (wo : Vec F S1024x512 .bf16) (bo : Vec F S1x512 .f32)
    (ks : Vec F S1024x2048 .f32) (vs : Vec F S2048x1024 .bf16) : FVec F S1x256x512 .f32 :=
  k0_pay1
    (k0_pay18 (k0_pay5 x0 wq) (k0_pay8 x0 wq (keys0 ks)) (keys1 ks) (keys2 ks))
    (k0_pay21 (k0_pay5 x0 wq) (k0_pay8 x0 wq (keys0 ks)) (k0_pay11 x0 wq (keys0 ks)) (keys1 ks) (keys2 ks))
    (k0_pay22 (k0_pay5 x0 wq) (k0_pay8 x0 wq (keys0 ks)) (k0_pay12 x0 wq (keys0 ks) (vals0 vs)) (keys1 ks) (vals1 vs) (keys2 ks) (vals2 vs))
    (vals3 vs)
    (k0_pay23 (k0_pay5 x0 wq) (keys3 ks))
    (k0_pay24 (k0_pay5 x0 wq) (keys3 ks))
    wo bo

/-- At a tile that is not a batch's first, the body leaves `tile` of its loads and of the caches it found. -/
theorem out_later (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x512 .bf16) (harg7 : arg7.IsWhole) (arg8 : Memref sig .tc .vmem S1x512 .f32) (harg8 : arg8.IsWhole) (arg9 : Memref sig .tc .vmem S1x256x512 .f32) (harg9 : arg9.IsWhole) (arg10 : Memref sig .tc .vmem S1024x2048 .f32) (harg10 : arg10.IsWhole) (arg11 : Memref sig .tc .vmem S2048x1024 .bf16) (harg11 : arg11.IsWhole) (hc0 : ¬cond0_0 i) (x0 : Vec F S1x256x512 .f32) (x1 : Vec F S1x2048x512 .f32) (x2 : Vec F S512x1024 .bf16) (x3 : Vec F S512x1024 .bf16) (x4 : Vec F S512x1024 .bf16) (x5 : Vec F S1024x512 .bf16) (x6 : Vec F S1x512 .f32) (xs0 : Vec F S1024x2048 .f32) (xs1 : Vec F S2048x1024 .bf16) :
    out0_B_7 c i arg2 harg2 arg3 harg3 arg4 harg4 arg5 harg5 arg6 harg6 arg7 harg7 arg8 harg8 arg9 harg9 arg10 harg10 arg11 harg11 hc0 x0 x1 x2 x3 x4 x5 x6 xs0 xs1 = tile x0 x2 x5 x6 xs0 xs1 := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 x0 x1 x2 x3 x4 x5 x6 xs0 xs1)]
  unfold kernelRun0_B
  dsimp only
  sl_unfold_words
  rw [View.canon_unit_zero hz3]
  simp only [View.readAt_eq_ld, harg2.read_unread, harg4.read_unread, harg7.read_unread, harg8.read_unread, harg10.read_unread, harg11.read_unread, View.ld_unit_zero (S := S1x256x512) hz3, View.ld_unit_zero (S := S512x1024) hz2, View.ld_unit_zero (S := S1024x512) hz2, View.ld_unit_zero (S := S1x512) hz2]
  rfl

/-- At a batch's first tile the body stores the transposed key projections of the batch's source rows … -/
theorem cacheK_first (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x512 .bf16) (harg7 : arg7.IsWhole) (arg8 : Memref sig .tc .vmem S1x512 .f32) (harg8 : arg8.IsWhole) (arg9 : Memref sig .tc .vmem S1x256x512 .f32) (harg9 : arg9.IsWhole) (arg10 : Memref sig .tc .vmem S1024x2048 .f32) (harg10 : arg10.IsWhole) (arg11 : Memref sig .tc .vmem S2048x1024 .bf16) (harg11 : arg11.IsWhole) (hc0 : cond0_0 i) (x0 : Vec F S1x256x512 .f32) (x1 : Vec F S1x2048x512 .f32) (x2 : Vec F S512x1024 .bf16) (x3 : Vec F S512x1024 .bf16) (x4 : Vec F S512x1024 .bf16) (x5 : Vec F S1024x512 .bf16) (x6 : Vec F S1x512 .f32) :
    sout0_A_0 c i arg2 harg2 arg3 harg3 arg4 harg4 arg5 harg5 arg6 harg6 arg7 harg7 arg8 harg8 arg9 harg9 arg10 harg10 arg11 harg11 hc0 x0 x1 x2 x3 x4 x5 x6 = k0_pay3 x1 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz2]
  simp only [View.readAt_eq_ld, harg3.read_unread, harg5.read_unread, View.ld_unit_zero (S := S1x2048x512) hz3, View.ld_unit_zero (S := S512x1024) hz2]

/-- … and the value projections, each whole. -/
theorem cacheV_first (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x512 .bf16) (harg7 : arg7.IsWhole) (arg8 : Memref sig .tc .vmem S1x512 .f32) (harg8 : arg8.IsWhole) (arg9 : Memref sig .tc .vmem S1x256x512 .f32) (harg9 : arg9.IsWhole) (arg10 : Memref sig .tc .vmem S1024x2048 .f32) (harg10 : arg10.IsWhole) (arg11 : Memref sig .tc .vmem S2048x1024 .bf16) (harg11 : arg11.IsWhole) (hc0 : cond0_0 i) (x0 : Vec F S1x256x512 .f32) (x1 : Vec F S1x2048x512 .f32) (x2 : Vec F S512x1024 .bf16) (x3 : Vec F S512x1024 .bf16) (x4 : Vec F S512x1024 .bf16) (x5 : Vec F S1024x512 .bf16) (x6 : Vec F S1x512 .f32) :
    sout0_A_1 c i arg2 harg2 arg3 harg3 arg4 harg4 arg5 harg5 arg6 harg6 arg7 harg7 arg8 harg8 arg9 harg9 arg10 harg10 arg11 harg11 hc0 x0 x1 x2 x3 x4 x5 x6 = k0_pay4 x1 x4 := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz2]
  simp only [View.readAt_eq_ld, harg3.read_unread, harg6.read_unread, View.ld_unit_zero (S := S1x2048x512) hz3, View.ld_unit_zero (S := S512x1024) hz2]

/-- … then reads them back chunk by chunk: its output is `tile` of the caches it has just stored. -/
theorem out_first (c : Dev nD) (i : grid0.Coords) (arg2 : Memref sig .tc .vmem S1x256x512 .f32) (harg2 : arg2.IsWhole) (arg3 : Memref sig .tc .vmem S1x2048x512 .f32) (harg3 : arg3.IsWhole) (arg4 : Memref sig .tc .vmem S512x1024 .bf16) (harg4 : arg4.IsWhole) (arg5 : Memref sig .tc .vmem S512x1024 .bf16) (harg5 : arg5.IsWhole) (arg6 : Memref sig .tc .vmem S512x1024 .bf16) (harg6 : arg6.IsWhole) (arg7 : Memref sig .tc .vmem S1024x512 .bf16) (harg7 : arg7.IsWhole) (arg8 : Memref sig .tc .vmem S1x512 .f32) (harg8 : arg8.IsWhole) (arg9 : Memref sig .tc .vmem S1x256x512 .f32) (harg9 : arg9.IsWhole) (arg10 : Memref sig .tc .vmem S1024x2048 .f32) (harg10 : arg10.IsWhole) (arg11 : Memref sig .tc .vmem S2048x1024 .bf16) (harg11 : arg11.IsWhole) (hc0 : cond0_0 i) (x0 : Vec F S1x256x512 .f32) (x1 : Vec F S1x2048x512 .f32) (x2 : Vec F S512x1024 .bf16) (x3 : Vec F S512x1024 .bf16) (x4 : Vec F S512x1024 .bf16) (x5 : Vec F S1024x512 .bf16) (x6 : Vec F S1x512 .f32) :
    out0_A_7 c i arg2 harg2 arg3 harg3 arg4 harg4 arg5 harg5 arg6 harg6 arg7 harg7 arg8 harg8 arg9 harg9 arg10 harg10 arg11 harg11 hc0 x0 x1 x2 x3 x4 x5 x6 = tile x0 x2 x5 x6 (k0_pay3 x1 x3) (k0_pay4 x1 x4) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 x0 x1 x2 x3 x4 x5 x6)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, View.ld_unit_zero (S := S1x256x512) hz3, View.ld_unit_zero (S := S1x2048x512) hz3, View.ld_unit_zero (S := S512x1024) hz2, View.ld_unit_zero (S := S1024x512) hz2, View.ld_unit_zero (S := S1x512) hz2, readCov_whole (S := S1024x2048) _ hz2, readCov_whole (S := S2048x1024) _ hz2]
  rfl

end Cert.KernelIdeal.Pieces

end
-- ==== Proof.KernelMatmul.lean ====
/-
  The kernel's three matrix products read at a coordinate pair.

  Every matrix product of the body contracts the left operand's lane axis against the right operand's row axis into a
  zero accumulator, so at `(p, q)` it is `∑ₖ lhs (p, k) · rhs (k, q)` on the extended reals, whatever the operands'
  formats and the requested contraction precision (at the exact instance both are immaterial).
-/
import proofs.«173240_j14663018348623_2_alg».proof.Proof.Gen.KernelIdeal
import Idealize.ShloMosaic.PureOps.Ideal.Laws
import Idealize.ShloMosaic.Lib.ValueIdx

noncomputable section

namespace Cert.KernelIdeal.Matmul

open Idealize.ShloMosaic Idealize.ShloMosaic.ValueIdx Cert.KernelIdeal

/-- A `[256, 512]` by `[512, 1024]` matrix product into the zero accumulator, at `(p, q)`: the sum over the contracted
    coordinate `k` of `lhs (p, k) · rhs (k, q)`. -/
theorem mm_256_512_1024 {φ₁ φ₂ : FTy} (prec : Option ContractPrecision) (lhs : FVec Ideal S256x512 φ₁) (rhs : FVec Ideal S512x1024 φ₂)
    (p : Fin 256) (q : Fin 1024) :
    matmul dot_S256x512_S512x1024_S256x1024_1_0_0_1_n_n prec lhs rhs (constant S256x1024 .f32 0x00000000#32) (ix2 p q)
      = ∑ k : Fin 512, lhs (ix2 p k) * rhs (ix2 k q) := by
  refine (Ideal.matmul_constant_zero_apply dot_S256x512_S512x1024_S256x1024_1_0_0_1_n_n prec lhs rhs (ix2 p q)).trans ?_
  have l0 : ∀ κ, (dot_S256x512_S512x1024_S256x1024_1_0_0_1_n_n.lhsIdx (ix2 p q) κ 0).val = p.val := fun κ => by
    unfold DotDims.lhsIdx
    rw [dif_neg (show ¬(0 : Fin S256x512.rank) ∈ dot_S256x512_S512x1024_S256x1024_1_0_0_1_n_n.lhsBatch by decide), dif_pos (show (0 : Fin S256x512.rank) ∈ dot_S256x512_S512x1024_S256x1024_1_0_0_1_n_n.lhsNonContracting by decide)]
    rfl
  have r1 : ∀ κ, (dot_S256x512_S512x1024_S256x1024_1_0_0_1_n_n.rhsIdx (ix2 p q) κ 1).val = q.val := fun κ => by
    unfold DotDims.rhsIdx
    rw [dif_neg (show ¬(1 : Fin S512x1024.rank) ∈ dot_S256x512_S512x1024_S256x1024_1_0_0_1_n_n.rhsBatch by decide), dif_pos (show (1 : Fin S512x1024.rank) ∈ dot_S256x512_S512x1024_S256x1024_1_0_0_1_n_n.rhsNonContracting by decide)]
    rfl
  rw [← Equiv.sum_comp (contrEquiv1 dot_S256x512_S512x1024_S256x1024_1_0_0_1_n_n 512 rfl rfl).symm]
  refine Finset.sum_congr rfl fun k _ => ?_
  have hk := contrEquiv1_symm_val dot_S256x512_S512x1024_S256x1024_1_0_0_1_n_n 512 rfl rfl k
  have el : dot_S256x512_S512x1024_S256x1024_1_0_0_1_n_n.lhsIdx (ix2 p q) ((contrEquiv1 dot_S256x512_S512x1024_S256x1024_1_0_0_1_n_n 512 rfl rfl).symm k) = ix2 p k := funext fun a => Fin.ext (by
    match a with
    | ⟨0, _⟩ => exact l0 _
    | ⟨1, _⟩ => exact (dot_S256x512_S512x1024_S256x1024_1_0_0_1_n_n.lhsIdx_val_of_single rfl _ _).trans hk)
  have er : dot_S256x512_S512x1024_S256x1024_1_0_0_1_n_n.rhsIdx (ix2 p q) ((contrEquiv1 dot_S256x512_S512x1024_S256x1024_1_0_0_1_n_n 512 rfl rfl).symm k) = ix2 k q := funext fun a => Fin.ext (by
    match a with
    | ⟨0, _⟩ => exact (dot_S256x512_S512x1024_S256x1024_1_0_0_1_n_n.rhsIdx_val_of_single rfl _ _).trans hk
    | ⟨1, _⟩ => exact r1 _)
  rw [el, er]

/-- A `[256, 1024]` by `[1024, 512]` matrix product into the zero accumulator, at `(p, q)`: the sum over the contracted
    coordinate `k` of `lhs (p, k) · rhs (k, q)`. -/
theorem mm_256_1024_512 {φ₁ φ₂ : FTy} (prec : Option ContractPrecision) (lhs : FVec Ideal S256x1024 φ₁) (rhs : FVec Ideal S1024x512 φ₂)
    (p : Fin 256) (q : Fin 512) :
    matmul dot_S256x1024_S1024x512_S256x512_1_0_0_1_n_n prec lhs rhs (constant S256x512 .f32 0x00000000#32) (ix2 p q)
      = ∑ k : Fin 1024, lhs (ix2 p k) * rhs (ix2 k q) := by
  refine (Ideal.matmul_constant_zero_apply dot_S256x1024_S1024x512_S256x512_1_0_0_1_n_n prec lhs rhs (ix2 p q)).trans ?_
  have l0 : ∀ κ, (dot_S256x1024_S1024x512_S256x512_1_0_0_1_n_n.lhsIdx (ix2 p q) κ 0).val = p.val := fun κ => by
    unfold DotDims.lhsIdx
    rw [dif_neg (show ¬(0 : Fin S256x1024.rank) ∈ dot_S256x1024_S1024x512_S256x512_1_0_0_1_n_n.lhsBatch by decide), dif_pos (show (0 : Fin S256x1024.rank) ∈ dot_S256x1024_S1024x512_S256x512_1_0_0_1_n_n.lhsNonContracting by decide)]
    rfl
  have r1 : ∀ κ, (dot_S256x1024_S1024x512_S256x512_1_0_0_1_n_n.rhsIdx (ix2 p q) κ 1).val = q.val := fun κ => by
    unfold DotDims.rhsIdx
    rw [dif_neg (show ¬(1 : Fin S1024x512.rank) ∈ dot_S256x1024_S1024x512_S256x512_1_0_0_1_n_n.rhsBatch by decide), dif_pos (show (1 : Fin S1024x512.rank) ∈ dot_S256x1024_S1024x512_S256x512_1_0_0_1_n_n.rhsNonContracting by decide)]
    rfl
  rw [← Equiv.sum_comp (contrEquiv1 dot_S256x1024_S1024x512_S256x512_1_0_0_1_n_n 1024 rfl rfl).symm]
  refine Finset.sum_congr rfl fun k _ => ?_
  have hk := contrEquiv1_symm_val dot_S256x1024_S1024x512_S256x512_1_0_0_1_n_n 1024 rfl rfl k
  have el : dot_S256x1024_S1024x512_S256x512_1_0_0_1_n_n.lhsIdx (ix2 p q) ((contrEquiv1 dot_S256x1024_S1024x512_S256x512_1_0_0_1_n_n 1024 rfl rfl).symm k) = ix2 p k := funext fun a => Fin.ext (by
    match a with
    | ⟨0, _⟩ => exact l0 _
    | ⟨1, _⟩ => exact (dot_S256x1024_S1024x512_S256x512_1_0_0_1_n_n.lhsIdx_val_of_single rfl _ _).trans hk)
  have er : dot_S256x1024_S1024x512_S256x512_1_0_0_1_n_n.rhsIdx (ix2 p q) ((contrEquiv1 dot_S256x1024_S1024x512_S256x512_1_0_0_1_n_n 1024 rfl rfl).symm k) = ix2 k q := funext fun a => Fin.ext (by
    match a with
    | ⟨0, _⟩ => exact (dot_S256x1024_S1024x512_S256x512_1_0_0_1_n_n.rhsIdx_val_of_single rfl _ _).trans hk
    | ⟨1, _⟩ => exact r1 _)
  rw [el, er]

/-- A `[2048, 512]` by `[512, 1024]` matrix product into the zero accumulator, at `(p, q)`: the sum over the contracted
    coordinate `k` of `lhs (p, k) · rhs (k, q)`. -/
theorem mm_2048_512_1024 {φ₁ φ₂ : FTy} (prec : Option ContractPrecision) (lhs : FVec Ideal S2048x512 φ₁) (rhs : FVec Ideal S512x1024 φ₂)
    (p : Fin 2048) (q : Fin 1024) :
    matmul dot_S2048x512_S512x1024_S2048x1024_1_0_0_1_n_n prec lhs rhs (constant S2048x1024 .f32 0x00000000#32) (ix2 p q)
      = ∑ k : Fin 512, lhs (ix2 p k) * rhs (ix2 k q) := by
  refine (Ideal.matmul_constant_zero_apply dot_S2048x512_S512x1024_S2048x1024_1_0_0_1_n_n prec lhs rhs (ix2 p q)).trans ?_
  have l0 : ∀ κ, (dot_S2048x512_S512x1024_S2048x1024_1_0_0_1_n_n.lhsIdx (ix2 p q) κ 0).val = p.val := fun κ => by
    unfold DotDims.lhsIdx
    rw [dif_neg (show ¬(0 : Fin S2048x512.rank) ∈ dot_S2048x512_S512x1024_S2048x1024_1_0_0_1_n_n.lhsBatch by decide), dif_pos (show (0 : Fin S2048x512.rank) ∈ dot_S2048x512_S512x1024_S2048x1024_1_0_0_1_n_n.lhsNonContracting by decide)]
    rfl
  have r1 : ∀ κ, (dot_S2048x512_S512x1024_S2048x1024_1_0_0_1_n_n.rhsIdx (ix2 p q) κ 1).val = q.val := fun κ => by
    unfold DotDims.rhsIdx
    rw [dif_neg (show ¬(1 : Fin S512x1024.rank) ∈ dot_S2048x512_S512x1024_S2048x1024_1_0_0_1_n_n.rhsBatch by decide), dif_pos (show (1 : Fin S512x1024.rank) ∈ dot_S2048x512_S512x1024_S2048x1024_1_0_0_1_n_n.rhsNonContracting by decide)]
    rfl
  rw [← Equiv.sum_comp (contrEquiv1 dot_S2048x512_S512x1024_S2048x1024_1_0_0_1_n_n 512 rfl rfl).symm]
  refine Finset.sum_congr rfl fun k _ => ?_
  have hk := contrEquiv1_symm_val dot_S2048x512_S512x1024_S2048x1024_1_0_0_1_n_n 512 rfl rfl k
  have el : dot_S2048x512_S512x1024_S2048x1024_1_0_0_1_n_n.lhsIdx (ix2 p q) ((contrEquiv1 dot_S2048x512_S512x1024_S2048x1024_1_0_0_1_n_n 512 rfl rfl).symm k) = ix2 p k := funext fun a => Fin.ext (by
    match a with
    | ⟨0, _⟩ => exact l0 _
    | ⟨1, _⟩ => exact (dot_S2048x512_S512x1024_S2048x1024_1_0_0_1_n_n.lhsIdx_val_of_single rfl _ _).trans hk)
  have er : dot_S2048x512_S512x1024_S2048x1024_1_0_0_1_n_n.rhsIdx (ix2 p q) ((contrEquiv1 dot_S2048x512_S512x1024_S2048x1024_1_0_0_1_n_n 512 rfl rfl).symm k) = ix2 k q := funext fun a => Fin.ext (by
    match a with
    | ⟨0, _⟩ => exact (dot_S2048x512_S512x1024_S2048x1024_1_0_0_1_n_n.rhsIdx_val_of_single rfl _ _).trans hk
    | ⟨1, _⟩ => exact r1 _)
  rw [el, er]

end Cert.KernelIdeal.Matmul

end
-- ==== Proof.LibSoftmaxRow.lean ====
/-
  One row of softmax attention on the extended reals: normalising the weights before or after the weighted sum.

  A row of scores `t k` (k over the keys) and a column of values `v k` give the output
  `∑ₖ softmax(t)ₖ · vₖ`, where `softmax(t)ₖ = exp (tₖ - M) / L`, `M = maxₖ tₖ` (taken from `-∞`) and `L = ∑ₖ exp (tₖ - M)`.
  The quotient by `L` may be taken of every weight before the weighted sum (`attnNormalised`), or once of the weighted
  sum (`attnDeferred`): on the extended reals the two agree as soon as every score and every value is a real number
  (`attnNormalised_eq_attnDeferred`), because then `M` is a real (a maximum of at least one real), every weight
  `exp (tₖ - M)` is a positive real, `L` is a positive real, and a quotient by a nonzero real is the product with its
  reciprocal, which distributes over a finite sum of reals. (At an infinite entry the two can differ, which is why the
  hypothesis is there.) Also: `IsReal`, the extended reals that are real numbers, closed under sums and products; the
  coercion of a finite sum; the f32 pattern of `-∞` is `⊥`. Nothing here mentions a program.
-/
import Idealize.ShloMosaic.PureOps.Ideal
import Idealize.ShloMosaic.PureOps.Ideal.Laws

noncomputable section

namespace Cert.SoftmaxRow

open Idealize.ShloMosaic

/-! ## Reals inside the extended reals -/

/-- An extended real that is a real number. -/
def IsReal (x : EReal) : Prop := ∃ r : ℝ, x = (r : EReal)

theorem isReal_coe (r : ℝ) : IsReal (r : EReal) := ⟨r, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The coercion commutes with a finite sum. -/
theorem coe_sum {ι : Type} (s : Finset ι) (f : ι → ℝ) : ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

theorem isReal_sum {ι : Type} (s : Finset ι) (f : ι → EReal) (h : ∀ i, IsReal (f i)) : IsReal (∑ i ∈ s, f i) := by
  choose g hg using h
  exact ⟨∑ i ∈ s, g i, by rw [coe_sum]; exact Finset.sum_congr rfl fun i _ => hg i⟩

/-! ## The pattern of `-∞` -/

/-- The pattern of `-∞` is the bottom of the extended reals. -/
theorem ofBits_negInf : Ideal.ofBits .f32 0xFF800000#32 = ⊥ := by
  simp [Ideal.ofBits, Ideal.ieee]

/-! ## One row -/

variable {n : ℕ}

/-- The row's maximum, from `-∞`. -/
def rowMax (t : Fin n → EReal) : EReal := (Finset.univ : Finset (Fin n)).fold max ⊥ t

/-- The unnormalised weight of key `k`. -/
def rowWt (t : Fin n → EReal) (k : Fin n) : EReal := Ideal.exp (t k - rowMax t)

/-- The normaliser: the sum of the weights. -/
def rowDen (t : Fin n → EReal) : EReal := ∑ k, rowWt t k

/-- The weighted sum of the values, divided once by the normaliser. -/
def attnDeferred (t v : Fin n → EReal) : EReal := Ideal.div (∑ k, rowWt t k * v k) (rowDen t)

/-- Every weight divided by the normaliser, then the weighted sum. -/
def attnNormalised (t v : Fin n → EReal) : EReal := ∑ k, Ideal.div (rowWt t k) (rowDen t) * v k

/-- The maximum of at least one real is a real. -/
theorem rowMax_coe (hn : 0 < n) (t : Fin n → ℝ) : IsReal (rowMax fun k => (t k : EReal)) := by
  unfold rowMax
  have hlt : (Finset.univ : Finset (Fin n)).fold max (⊥ : EReal) (fun k => (t k : EReal)) < ⊤ :=
    (Finset.fold_max_lt _).mpr ⟨bot_lt_top, fun k _ => EReal.coe_lt_top _⟩
  have hge : ((t ⟨0, hn⟩ : ℝ) : EReal) ≤ (Finset.univ : Finset (Fin n)).fold max (⊥ : EReal) (fun k => (t k : EReal)) :=
    (Finset.le_fold_max _).mpr (Or.inr ⟨⟨0, hn⟩, Finset.mem_univ _, le_rfl⟩)
  have hne : (Finset.univ : Finset (Fin n)).fold max (⊥ : EReal) (fun k => (t k : EReal)) ≠ ⊥ := fun h => by
    rw [h] at hge
    exact EReal.coe_ne_bot _ (le_bot_iff.mp hge)
  exact ⟨_, (EReal.coe_toReal hlt.ne hne).symm⟩

/-- THE LAW: with real scores and real values, normalising the weights first or the weighted sum afterwards
    is the same extended real. -/
theorem attnNormalised_eq_attnDeferred (hn : 0 < n) (t v : Fin n → EReal) (ht : ∀ k, IsReal (t k)) (hv : ∀ k, IsReal (v k)) :
    attnNormalised t v = attnDeferred t v := by
  choose t' ht' using ht
  choose v' hv' using hv
  obtain rfl : t = fun k => (t' k : EReal) := funext ht'
  obtain rfl : v = fun k => (v' k : EReal) := funext hv'
  obtain ⟨M, hM⟩ := rowMax_coe hn t'
  have hw : ∀ k, rowWt (fun k => (t' k : EReal)) k = ((Real.exp (t' k - M) : ℝ) : EReal) := fun k => by
    unfold rowWt
    rw [hM, ← EReal.coe_sub, Ideal.exp_coe]
  have hL : rowDen (fun k => (t' k : EReal)) = ((∑ k, Real.exp (t' k - M) : ℝ) : EReal) := by
    unfold rowDen
    rw [coe_sum]
    exact Finset.sum_congr rfl fun k _ => hw k
  have hpos : (∑ k : Fin n, Real.exp (t' k - M)) ≠ 0 :=
    (Finset.sum_pos (fun k _ => Real.exp_pos _) ⟨⟨0, hn⟩, Finset.mem_univ _⟩).ne'
  unfold attnNormalised attnDeferred
  rw [hL, Ideal.div_coe hpos]
  simp only [hw, Ideal.div_coe hpos, ← EReal.coe_mul, ← coe_sum]
  congr 1
  rw [Finset.sum_mul]
  exact Finset.sum_congr rfl fun k _ => by ring

end Cert.SoftmaxRow

end
-- ==== Proof.LibSumBlocks.lean ====
/-
  Regrouping a finite sum into consecutive blocks, in any commutative monoid.

  A sum over the first `a * b` naturals is the sum over `a` consecutive blocks of `b` of each block's sum, position `q` of
  block `s` being the natural `s * b + q`; and so is a sum over `Fin n` when `n = a * b`. Only associativity and
  commutativity of the addition are used: in the extended reals the law holds at the infinities too. It is the law
  between a contraction taken whole and the same contraction accumulated block by block along the contracted axis.
-/
import Mathlib.Algebra.BigOperators.Fin

namespace Cert.Lib.SumBlocks

/-- A sum over the first `a * b` naturals is the sum, over `a` consecutive blocks of `b`, of each block's sum. -/
theorem sum_range_blocks {β : Type*} [AddCommMonoid β] (g : ℕ → β) (a b : ℕ) :
    ∑ n ∈ Finset.range (a * b), g n = ∑ s ∈ Finset.range a, ∑ q ∈ Finset.range b, g (s * b + q) := by
  induction a with
  | zero => simp
  | succ a ih => rw [Nat.succ_mul, Finset.sum_range_add, ih, Finset.sum_range_succ]

/-- A function of `n` positions, continued by zero to every natural, so that a position may be named by block number and
    offset without a bound in its type. -/
def onNat {β : Type*} [Zero β] {n : ℕ} (f : Fin n → β) (k : ℕ) : β := if h : k < n then f ⟨k, h⟩ else 0

/-- At a natural below `n` the continuation is the function itself. -/
theorem onNat_of_lt {β : Type*} [Zero β] {n : ℕ} (f : Fin n → β) (k : ℕ) (h : k < n) : onNat f k = f ⟨k, h⟩ :=
  dif_pos h

/-- A sum over `n = a * b` positions is the sum over the `a` blocks of `b` of each block's sum, the block's positions
    indexed by `Fin b`. -/
theorem sum_fin_blocks {β : Type*} [AddCommMonoid β] {n : ℕ} (a b : ℕ) (hn : n = a * b) (f : Fin n → β) :
    ∑ k : Fin n, f k = ∑ s ∈ Finset.range a, ∑ q : Fin b, onNat f (s * b + q.val) := by
  subst hn
  have h1 : ∑ k : Fin (a * b), f k = ∑ k : Fin (a * b), onNat f k.val :=
    Finset.sum_congr rfl fun k _ => (onNat_of_lt f k.val k.isLt).symm
  rw [h1, Fin.sum_univ_eq_sum_range (onNat f) (a * b), sum_range_blocks]
  exact Finset.sum_congr rfl fun s _ => (Fin.sum_univ_eq_sum_range (fun q => onNat f (s * b + q)) b).symm

end Cert.Lib.SumBlocks
-- ==== Proof.OnlineSoftmax.lean ====
/-
  The softmax of one row of 2048 scores taken in four chunks of 512 with a running maximum (a numerically stable
  "online" softmax), against the softmax taken whole.

  The running state after some chunks is `(m, l, a)`: the maximum so far (from `-∞`), the sum of the weights
  `exp (t - m)` so far, and the weighted sum of the values so far. A new chunk `s` with values `u` moves it to
    m' = max m (max s),   l' = exp (m - m') · l + ∑ⱼ exp (sⱼ - m'),   a' = exp (m - m') · a + ∑ⱼ exp (sⱼ - m') · uⱼ
  (`step`): the old sums are rescaled to the new maximum. From `(-∞, 0, 0)`, after the four chunks, `a / l` is the
  row's attended value with the quotient taken once (`run_div`), when every score and every value is a real.
  Nothing here mentions a program.
-/
import Idealize.ShloMosaic.PureOps.Ideal
import proofs.«173240_j14663018348623_2_alg».proof.Proof.LibSoftmaxRow
import proofs.«173240_j14663018348623_2_alg».proof.Proof.LibSumBlocks

noncomputable section

namespace Cert.OnlineSoftmax

open Idealize.ShloMosaic Cert.SoftmaxRow

/-- Chunk `k` of four of a row of 2048 entries: positions `512·k … 512·k + 511`. -/
def chunk (f : Fin 2048 → EReal) (k : Fin 4) (j : Fin 512) : EReal := f ⟨k.val * 512 + j.val, by omega⟩

/-- One chunk of scores `s` with values `u` taken into the running state (maximum, normaliser, weighted sum). -/
def step (st : EReal × EReal × EReal) (s u : Fin 512 → EReal) : EReal × EReal × EReal :=
  (max st.1 (rowMax s),
   Ideal.exp (st.1 - max st.1 (rowMax s)) * st.2.1 + ∑ j, Ideal.exp (s j - max st.1 (rowMax s)),
   Ideal.exp (st.1 - max st.1 (rowMax s)) * st.2.2 + ∑ j, Ideal.exp (s j - max st.1 (rowMax s)) * u j)

/-- The state after the four chunks of the row `t` with values `v`, from `(-∞, 0, 0)`. -/
def run (t v : Fin 2048 → EReal) : EReal × EReal × EReal :=
  step (step (step (step (⊥, 0, 0) (chunk t 0) (chunk v 0)) (chunk t 1) (chunk v 1)) (chunk t 2) (chunk v 2))
    (chunk t 3) (chunk v 3)

/-- Chunk `k` of four of a row of 2048 reals: positions `512·k … 512·k + 511`. -/
def rchunk (f : Fin 2048 → ℝ) (k : Fin 4) (j : Fin 512) : ℝ := f ⟨k.val * 512 + j.val, by omega⟩

/-- A chunk of a row of coerced reals is the coerced chunk of the reals. -/
theorem chunk_coe (f : Fin 2048 → ℝ) (k : Fin 4) :
    chunk (fun i => (f i : EReal)) k = fun j => (rchunk f k j : EReal) := rfl

/-- A sum over the 2048 positions is the sum of the four chunks' sums. -/
theorem sum_rchunks (f : Fin 2048 → ℝ) :
    ∑ i, f i = ∑ j, rchunk f 0 j + ∑ j, rchunk f 1 j + ∑ j, rchunk f 2 j + ∑ j, rchunk f 3 j := by
  rw [Cert.Lib.SumBlocks.sum_fin_blocks 4 512 rfl f]
  simp only [Finset.sum_range_succ, Finset.sum_range_zero, zero_add]
  have h : ∀ (s : ℕ) (hs : s < 4) (q : Fin 512),
      Cert.Lib.SumBlocks.onNat f (s * 512 + q.val) = f ⟨s * 512 + q.val, by omega⟩ := fun s hs q =>
    Cert.Lib.SumBlocks.onNat_of_lt f _ (by omega)
  simp only [h 0 (by omega), h 1 (by omega), h 2 (by omega), h 3 (by omega)]
  rfl

/-- A running state stands for the sums `L = ∑ exp t` and `A = ∑ exp t · v` over the positions taken so far when its
    three entries are reals `m, l, a` with `l · exp m = L` and `a · exp m = A`: the sums are kept scaled by `exp (-m)`.
    Which real `m` is does not matter for the quotient `a / l = A / L`. -/
def Stands (st : EReal × EReal × EReal) (L A : ℝ) : Prop :=
  ∃ m l a : ℝ, st = ((m : EReal), (l : EReal), (a : EReal)) ∧ l * Real.exp m = L ∧ a * Real.exp m = A

/-- The sum of the weights `exp (s - m)` of a chunk of reals is a coerced real sum. -/
theorem sum_exp_coe (s : Fin 512 → ℝ) (m : ℝ) :
    ∑ j, Ideal.exp ((s j : EReal) - (m : EReal)) = ((∑ j, Real.exp (s j - m) : ℝ) : EReal) := by
  rw [coe_sum]
  exact Finset.sum_congr rfl fun j _ => by rw [← EReal.coe_sub, Ideal.exp_coe]

/-- The weighted sum `∑ exp (s - m) · u` of a chunk of reals is a coerced real sum. -/
theorem sum_exp_mul_coe (s u : Fin 512 → ℝ) (m : ℝ) :
    ∑ j, Ideal.exp ((s j : EReal) - (m : EReal)) * (u j : EReal) = ((∑ j, Real.exp (s j - m) * u j : ℝ) : EReal) := by
  rw [coe_sum]
  exact Finset.sum_congr rfl fun j _ => by rw [← EReal.coe_sub, Ideal.exp_coe, ← EReal.coe_mul]

/-- Scaling back: `(∑ exp (s - m)) · exp m = ∑ exp s`. -/
theorem sum_exp_sub_mul (s : Fin 512 → ℝ) (m : ℝ) :
    (∑ j, Real.exp (s j - m)) * Real.exp m = ∑ j, Real.exp (s j) := by
  rw [Finset.sum_mul]
  exact Finset.sum_congr rfl fun j _ => by rw [← Real.exp_add, sub_add_cancel]

/-- Scaling back: `(∑ exp (s - m) · u) · exp m = ∑ exp s · u`. -/
theorem sum_exp_sub_mul_mul (s u : Fin 512 → ℝ) (m : ℝ) :
    (∑ j, Real.exp (s j - m) * u j) * Real.exp m = ∑ j, Real.exp (s j) * u j := by
  rw [Finset.sum_mul]
  exact Finset.sum_congr rfl fun j _ => by rw [mul_right_comm, ← Real.exp_add, sub_add_cancel]

/-- The first chunk, taken from `(-∞, 0, 0)`: the old terms vanish since `exp (-∞) = 0`, and the state stands for the
    chunk's own sums. -/
theorem stands_first (s u : Fin 512 → ℝ) :
    Stands (step (⊥, 0, 0) (fun j => (s j : EReal)) (fun j => (u j : EReal)))
      (∑ j, Real.exp (s j)) (∑ j, Real.exp (s j) * u j) := by
  obtain ⟨M, hM⟩ := rowMax_coe (by norm_num) s
  refine ⟨M, ∑ j, Real.exp (s j - M), ∑ j, Real.exp (s j - M) * u j, ?_, sum_exp_sub_mul s M,
    sum_exp_sub_mul_mul s u M⟩
  unfold step
  simp only [hM, max_bot_left, EReal.bot_sub, Ideal.exp_bot, zero_mul, zero_add, sum_exp_coe, sum_exp_mul_coe]

/-- A further chunk: the old sums are rescaled by `exp (m - m')`, so scaled back by `exp m'` they are what they were,
    and the chunk's sums are added. -/
theorem stands_next {st : EReal × EReal × EReal} {L A : ℝ} (h : Stands st L A) (s u : Fin 512 → ℝ) :
    Stands (step st (fun j => (s j : EReal)) (fun j => (u j : EReal)))
      (L + ∑ j, Real.exp (s j)) (A + ∑ j, Real.exp (s j) * u j) := by
  obtain ⟨m, l, a, rfl, hl, ha⟩ := h
  obtain ⟨M, hM⟩ := rowMax_coe (by norm_num) s
  have hscale : Real.exp (m - max m M) * Real.exp (max m M) = Real.exp m := by
    rw [← Real.exp_add, sub_add_cancel]
  have hmax : max (m : EReal) (M : EReal) = ((max m M : ℝ) : EReal) :=
    (EReal.coe_strictMono.monotone.map_max).symm
  refine ⟨max m M, Real.exp (m - max m M) * l + ∑ j, Real.exp (s j - max m M),
    Real.exp (m - max m M) * a + ∑ j, Real.exp (s j - max m M) * u j, ?_, ?_, ?_⟩
  · unfold step
    simp only [hM, hmax, ← EReal.coe_sub, Ideal.exp_coe, ← EReal.coe_mul, EReal.coe_add, coe_sum]
  · rw [add_mul, sum_exp_sub_mul, mul_right_comm, hscale, mul_comm, hl]
  · rw [add_mul, sum_exp_sub_mul_mul, mul_right_comm, hscale, mul_comm, ha]

/-- After the four chunks of a row of reals the state stands for the sums over the whole row. -/
theorem stands_run (t v : Fin 2048 → ℝ) :
    Stands (run (fun i => (t i : EReal)) (fun i => (v i : EReal)))
      (∑ i, Real.exp (t i)) (∑ i, Real.exp (t i) * v i) := by
  have h := stands_next (stands_next (stands_next (stands_first (rchunk t 0) (rchunk v 0))
    (rchunk t 1) (rchunk v 1)) (rchunk t 2) (rchunk v 2)) (rchunk t 3) (rchunk v 3)
  rw [sum_rchunks fun i => Real.exp (t i), sum_rchunks fun i => Real.exp (t i) * v i]
  exact h

/-- THE LAW: with real scores and values, the weighted sum over the normaliser after the four chunks is the row's
    attended value, the quotient taken once. -/
theorem run_div (t v : Fin 2048 → EReal) (ht : ∀ k, IsReal (t k)) (hv : ∀ k, IsReal (v k)) :
    Ideal.div (run t v).2.2 (run t v).2.1 = attnDeferred t v := by
  choose t' ht' using ht
  choose v' hv' using hv
  obtain rfl : t = fun k => (t' k : EReal) := funext ht'
  obtain rfl : v = fun k => (v' k : EReal) := funext hv'
  obtain ⟨m, l, a, hrun, hl, ha⟩ := stands_run t' v'
  obtain ⟨M, hM⟩ := rowMax_coe (by norm_num) t'
  have hw : ∀ k, rowWt (fun k => (t' k : EReal)) k = ((Real.exp (t' k - M) : ℝ) : EReal) := fun k => by
    unfold rowWt
    rw [hM, ← EReal.coe_sub, Ideal.exp_coe]
  have hL : rowDen (fun k => (t' k : EReal)) = ((∑ k, Real.exp (t' k - M) : ℝ) : EReal) := by
    unfold rowDen
    rw [coe_sum]
    exact Finset.sum_congr rfl fun k _ => hw k
  have hpos : (∑ k : Fin 2048, Real.exp (t' k - M)) ≠ 0 :=
    (Finset.sum_pos (fun k _ => Real.exp_pos _) ⟨⟨0, by norm_num⟩, Finset.mem_univ _⟩).ne'
  have hLpos : 0 < ∑ k : Fin 2048, Real.exp (t' k) :=
    Finset.sum_pos (fun k _ => Real.exp_pos _) ⟨⟨0, by norm_num⟩, Finset.mem_univ _⟩
  have hlne : l ≠ 0 := fun h0 => by
    rw [h0, zero_mul] at hl
    exact hLpos.ne hl
  -- the whole-row sums with the maximum taken out are the plain sums scaled by `exp (-M)`
  have hden : ∑ k : Fin 2048, Real.exp (t' k - M) = l * Real.exp m * Real.exp (-M) := by
    rw [hl, Finset.sum_mul]
    exact Finset.sum_congr rfl fun k _ => by rw [← Real.exp_add, sub_eq_add_neg]
  have hnum : ∑ k : Fin 2048, Real.exp (t' k - M) * v' k = a * Real.exp m * Real.exp (-M) := by
    rw [ha, Finset.sum_mul]
    exact Finset.sum_congr rfl fun k _ => by rw [mul_right_comm, ← Real.exp_add, sub_eq_add_neg]
  have hN : ∑ k, rowWt (fun k => (t' k : EReal)) k * (v' k : EReal)
      = ((∑ k, Real.exp (t' k - M) * v' k : ℝ) : EReal) := by
    rw [coe_sum]
    exact Finset.sum_congr rfl fun k _ => by rw [hw, ← EReal.coe_mul]
  unfold attnDeferred
  rw [hrun, hL, hN, Ideal.div_coe hpos]
  show Ideal.div (a : EReal) (l : EReal) = _
  rw [Ideal.div_coe hlne, ← EReal.coe_mul, ← EReal.coe_mul, hnum, hden, EReal.coe_eq_coe_iff]
  have hem : Real.exp m ≠ 0 := (Real.exp_pos m).ne'
  have heM : Real.exp (-M) ≠ 0 := (Real.exp_pos (-M)).ne'
  field_simp

end Cert.OnlineSoftmax

end
-- ==== Proof.LibRowOps.lean ====
/-
  Rows of a matrix reduced along their lanes, and a column of per-row values spread back over the lanes, each read at an
  index written by its coordinates.

  A softmax over the lanes of an `[a, b]` matrix takes, row by row, a maximum and a sum over the `b` lanes, and
  gives each back to every lane of its row (a vector `[a]` cast to a column `[a, 1]`, then broadcast to `[a, b]`).
  At the ideal values the lane maximum at row `p` is the fold of `max` over `c : Fin b` of the entries `(p, c)`, the
  lane sum the sum over `c` of them, and the spread column reads, at `(p, c)`, the vector at `p`.
  The host's reduction over the MIDDLE axis of an `[n, a, b]` array (a softmax over axis 1) is read the same way:
  at `(k, c)` the fold over `p : Fin a` of the entries `(k, p, c)`.
-/
import Idealize.ShloMosaic.PureOps.Ideal.Laws
import Idealize.ShloMosaic.Lib.Pipeline.Value
import Idealize.ShloMosaic.Lib.ValueIdx

namespace Cert.RowOps

open Idealize.ShloMosaic Idealize.ShloMosaic.ValueIdx

/-- A vector `[a]` cast to the column `[a, 1]` and broadcast over `b` lanes reads, at `(p, c)`, the vector at `p`:
    the column's one lane is lane `0`, and row `p` of the column is entry `p` of the vector. -/
theorem spreadColumn_apply {α : Type} {a b : ℕ} (x : (⟨1, ![a]⟩ : Shape).Idx → α)
    (h1 : (⟨1, ![a]⟩ : Shape).ShapeCasts ⟨2, ![a, 1]⟩) (h2 : (⟨2, ![a, 1]⟩ : Shape).Broadcasts ⟨2, ![a, b]⟩)
    (p : Fin a) (c : Fin b) :
    broadcastTo ⟨2, ![a, b]⟩ (shapeCast ⟨2, ![a, 1]⟩ x h1) h2 (ix2 p c) = x (ix1 p) := by
  refine (broadcastTo_apply _ h2 (ix2 p c) (ix2 p (0 : Fin 1)) fun ax => ?_).trans ?_
  · match ax with
    | ⟨0, _⟩ =>
      show p.val = if a = 1 then 0 else p.val
      split
      · have := p.isLt; omega
      · rfl
    | ⟨1, _⟩ =>
      show 0 = if (1 : ℕ) = 1 then 0 else c.val
      rw [if_pos rfl]
  · exact shapeCast_apply x h1 _ _ (by
      rw [Shape.rowMajor_val_one, Shape.rowMajor_val_two]
      show p.val = p.val * 1 + 0
      omega)

variable {φ : FTy}

/-- The lane maximum of row `p`: the fold of `max`, from the accumulator's value, over the row's `b` entries. -/
theorem laneMax_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun c => src (ix2 p c)) := by
  refine (Ideal.multiReduction_maximumf_single src acc h hφ hacc (ix1 p)).trans ?_
  show (Finset.univ : Finset (Fin b)).fold max (Ideal.ofBits φ acc) (fun c => src (h.lift (ix1 p) c)) = _
  refine congrArg (fun f => (Finset.univ : Finset (Fin b)).fold max (Ideal.ofBits φ acc) f) (funext fun c => ?_)
  exact congrArg src (funext fun ax => Fin.ext (by match ax with | ⟨0, _⟩ => rfl | ⟨1, _⟩ => rfl))

/-- The lane sum of row `p`: the sum of the row's `b` entries. -/
theorem laneSum_apply {a b : ℕ} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ c : Fin b, src (ix2 p c) := by
  refine (Ideal.multiReduction_add_single src acc h hφ hacc (ix1 p)).trans ?_
  show ∑ c : Fin b, src (h.lift (ix1 p) c) = _
  refine Finset.sum_congr rfl fun c _ => ?_
  exact congrArg src (funext fun ax => Fin.ext (by match ax with | ⟨0, _⟩ => rfl | ⟨1, _⟩ => rfl))

/-- The host's maximum over the MIDDLE axis of an `[n, a, b]` array, at `(k, c)`: the fold of `max`, from the initial
    value, over `p : Fin a` of the entries `(k, p, c)`. -/
theorem hostMidMax_apply {n a b : ℕ} {u : Shape} (x : (⟨3, ![n, a, b]⟩ : Shape).Idx → Ideal φ) (init : u.Idx → Ideal φ)
    (h' : (⟨3, ![n, a, b]⟩ : Shape).ReducesTo [1] ⟨2, ![n, b]⟩) (h : (⟨3, ![n, a, b]⟩ : Shape).Reduces [1] ⟨2, ![n, b]⟩)
    (hu : 0 < u.numel) (k : Fin n) (c : Fin b) :
    Host.reduce (FloatOps.maximumf (F := Ideal) (φ := φ)) x init h' hu (ix2 k c)
      = (Finset.univ : Finset (Fin a)).fold max (init (Shape.Idx.first hu)) (fun p => x (ix3 k p c)) := by
  refine (Host.reduce_eq_fold_single (FloatOps.maximumf (F := Ideal) (φ := φ)) x init h' h hu (ix2 k c)).trans ?_
  show (Finset.univ : Finset (Fin a)).fold max (init (Shape.Idx.first hu)) (fun p => x (h.lift (ix2 k c) p)) = _
  refine congrArg (fun f => (Finset.univ : Finset (Fin a)).fold max (init (Shape.Idx.first hu)) f) (funext fun p => ?_)
  exact congrArg x (funext fun ax => Fin.ext (by match ax with | ⟨0, _⟩ => rfl | ⟨1, _⟩ => rfl | ⟨2, _⟩ => rfl))

end Cert.RowOps
-- ==== Proof.LibKeepdims.lean ====
/-
  Layout operations of a sum taken with `keepdims`, read at an index given by coordinates, and a one-axis sum read
  as a sum over that axis's coordinate. General facts about shapes [a], [a, 1], [1, a] and [a, b]: nothing here
  mentions a program.

  • `shapeCast_a_a1_apply`: a vector [a] viewed as the column [a, 1] reads, at (i, u), the vector at i.
  • `broadcastTo_a1_ab_apply`: a column [a, 1] broadcast to [a, b] reads, at (p, c), the column at (p, 0).
  • `rowSum_apply`: the sum of an [a, b] array along its second axis reads, at p, the sum over k of the array at (p, k).
  • `rowSumSq_bcast_apply`: the squares of an [a, b] array summed along the second axis, kept as a column and broadcast
    to [a, c]: at (p, q) the sum over k of the square at (p, k) — a row's squared norm, the same in every column.
  • `colSumSq_bcast_apply`: the same sum for a [c, b] array, its column transposed to a row [1, c] and broadcast to
    [a, c]: at (p, q) the sum over k of the square at (q, k) — a row's squared norm, the same in every row.
-/
import Idealize.ShloMosaic.Lib.ValueLayout
import Idealize.ShloMosaic.PureOps.Ideal.Laws

noncomputable section

namespace Cert.Keepdims

open Idealize.ShloMosaic Idealize.ShloMosaic.ValueIdx

variable {α : Type}

/-- An `[a]` vector cast to the column `[a, 1]` reads, at `(i, u)`, the vector at `i`: the two row-major positions are
    `i` and `i * 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A float sum of an `[a, b]` array along its second axis, on the extended reals, reads at `p` the sum over `k` of the
    array at `(p, k)`. -/
theorem rowSum_apply {a b : ℕ} (src : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ src 0x00000000#32 hR hφ hacc (ix1 p) = ∑ k : Fin b, src (ix2 p k) :=
  (Ideal.multiReduction_add_single src _ hR hφ hacc (ix1 p)).trans
    (Finset.sum_congr rfl fun k _ => congrArg src (funext fun d => by match d with | ⟨0, _⟩ => rfl | ⟨1, _⟩ => rfl))

/-- Each row's squared norm, kept as a column and broadcast along the rows of `[a, c]`. -/
theorem rowSumSq_bcast_apply {a b c : ℕ} (v : FVec Ideal ⟨2, ![a, b]⟩ .f32) (hR : (⟨2, ![a, b]⟩ : Shape).Reduces [1] ⟨1, ![a]⟩)
    (hφ : FKind.Formats .f32) (hacc : (0x00000000#32 : BitVec 32) = FKind.add.neutral .f32 hφ)
    (hC : (⟨1, ![a]⟩ : Shape).ShapeCasts ⟨2, ![a, 1]⟩) (hB : (⟨2, ![a, 1]⟩ : Shape).Broadcasts ⟨2, ![a, c]⟩) (p : Fin a) (q : Fin c) :
    broadcastTo ⟨2, ![a, c]⟩ (shapeCast ⟨2, ![a, 1]⟩ (multiReduction (F := Ideal) .add [1] ⟨1, ![a]⟩ (mulf v v) 0x00000000#32 hR hφ hacc) hC) hB (ix2 p q)
      = ∑ k : Fin b, v (ix2 p k) * v (ix2 p k) :=
  (broadcastTo_a1_ab_apply _ hB p q).trans
    ((shapeCast_a_a1_apply _ hC p 0).trans (rowSum_apply (mulf v v) hR hφ hacc p))

/-- Each row's squared norm of a `[c, b]` array, its column turned into a row and broadcast down the rows of `[a, c]`. -/
theorem colSumSq_bcast_apply {a b c : ℕ} (w : FVec Ideal ⟨2, ![c, b]⟩ .f32) (hR : (⟨2, ![c, b]⟩ : Shape).Reduces [1] ⟨1, ![c]⟩)
    (hφ : FKind.Formats .f32) (hacc : (0x00000000#32 : BitVec 32) = FKind.add.neutral .f32 hφ)
    (hC : (⟨1, ![c]⟩ : Shape).ShapeCasts ⟨2, ![c, 1]⟩) (hT : (⟨2, ![c, 1]⟩ : Shape).Transposes [1, 0] ⟨2, ![1, c]⟩)
    (hB : (⟨2, ![1, c]⟩ : Shape).Broadcasts ⟨2, ![a, c]⟩) (p : Fin a) (q : Fin c) :
    broadcastTo ⟨2, ![a, c]⟩ (transpose ⟨2, ![1, c]⟩ [1, 0]
        (shapeCast ⟨2, ![c, 1]⟩ (multiReduction (F := Ideal) .add [1] ⟨1, ![c]⟩ (mulf w w) 0x00000000#32 hR hφ hacc) hC) hT) hB (ix2 p q)
      = ∑ k : Fin b, w (ix2 q k) * w (ix2 q k) :=
  (broadcastTo_1b_ab_apply _ hB p q).trans
    ((transpose_ix2_apply _ hT 0 q).trans
      ((shapeCast_a_a1_apply _ hC q 0).trans (rowSum_apply (mulf w w) hR hφ hacc q)))

end Cert.Keepdims

end
-- ==== Proof.TileOps.lean ====
/-
  The layout and reduction operations of one tile, each read at a coordinate pair on the extended reals.

  A row's lane maximum (from `-∞`) and lane sum (from `0`) kept as a column, a column spread over 512 or 1024 lanes,
  a score chunk (the query tile's projections against 512 cached keys), and a rectangle of a cache read where it lies.
-/
import proofs.«173240_j14663018348623_2_alg».proof.Proof.KernelPieces
import proofs.«173240_j14663018348623_2_alg».proof.Proof.KernelMatmul
import proofs.«173240_j14663018348623_2_alg».proof.Proof.OnlineSoftmax
import proofs.«173240_j14663018348623_2_alg».proof.Proof.LibRowOps
import proofs.«173240_j14663018348623_2_alg».proof.Proof.LibKeepdims
import Idealize.ShloMosaic.Lib.ValueIdx
import Idealize.ShloMosaic.Lib.ValueLayout
import Idealize.ShloMosaic.Lib.Pipeline.Value

noncomputable section

namespace Cert.KernelIdeal.TileOps

open Idealize.ShloMosaic Idealize.ShloMosaic.ValueIdx Cert.KernelIdeal Cert.KernelIdeal.Gen Cert.KernelIdeal.Matmul
open Cert.SoftmaxRow Cert.OnlineSoftmax

/-- Row `p`'s lane maximum from `-∞`: the row's maximum in the softmax-row sense. -/
theorem laneMax (src : FVec Ideal S256x512 .f32) (p : Fin 256) :
    multiReduction .maximumf [1] S256 src 0xFF800000#32 reduces_S256x512_S256 (.inl rfl) rfl (ix1 p)
      = rowMax (fun j : Fin 512 => src (ix2 p j)) := by
  refine (Cert.RowOps.laneMax_apply src 0xFF800000#32 reduces_S256x512_S256 (.inl rfl) rfl p).trans ?_
  unfold rowMax
  rw [ofBits_negInf]

/-- … kept as a column. -/
theorem colMax (src : FVec Ideal S256x512 .f32) (p : Fin 256) (u : Fin 1) :
    shapeCast S256x1 (multiReduction .maximumf [1] S256 src 0xFF800000#32 reduces_S256x512_S256 (.inl rfl) rfl)
        shapeCasts_S256_S256x1 (ix2 p u)
      = rowMax (fun j : Fin 512 => src (ix2 p j)) :=
  (Cert.Keepdims.shapeCast_a_a1_apply _ shapeCasts_S256_S256x1 p u).trans (laneMax src p)

/-- A vector of 256 entries cast to a column reads, in row `p`, entry `p`. -/
theorem colOf (v : FVec Ideal S256 .f32) (p : Fin 256) (u : Fin 1) :
    shapeCast S256x1 v shapeCasts_S256_S256x1 (ix2 p u) = v (ix1 p) :=
  Cert.Keepdims.shapeCast_a_a1_apply v shapeCasts_S256_S256x1 p u

/-- Row `p`'s lane sum from `0`, kept as a column: the sum of the row's 512 entries. -/
theorem colSum (src : FVec Ideal S256x512 .f32) (p : Fin 256) (u : Fin 1) :
    shapeCast S256x1 (multiReduction .add [1] S256 src 0x00000000#32 reduces_S256x512_S256 (.inl rfl) rfl)
        shapeCasts_S256_S256x1 (ix2 p u)
      = ∑ j : Fin 512, src (ix2 p j) :=
  (Cert.Keepdims.shapeCast_a_a1_apply _ shapeCasts_S256_S256x1 p u).trans
    (Cert.RowOps.laneSum_apply src 0x00000000#32 reduces_S256x512_S256 (.inl rfl) rfl p)

/-- A column spread over 512 lanes reads, at `(p, c)`, the column's row `p`. -/
theorem spread512 (v : FVec Ideal S256x1 .f32) (p : Fin 256) (c : Fin 512) :
    broadcastTo S256x512 v broadcasts_S256x1_S256x512 (ix2 p c) = v (ix2 p (0 : Fin 1)) :=
  Cert.Keepdims.broadcastTo_a1_ab_apply v broadcasts_S256x1_S256x512 p c

/-- A column spread over 1024 lanes reads, at `(p, e)`, the column's row `p`. -/
theorem spread1024 (v : FVec Ideal S256x1 .f32) (p : Fin 256) (e : Fin 1024) :
    broadcastTo S256x1024 v broadcasts_S256x1_S256x1024 (ix2 p e) = v (ix2 p (0 : Fin 1)) :=
  Cert.Keepdims.broadcastTo_a1_ab_apply v broadcasts_S256x1_S256x1024 p e

/-- A score chunk: row `p` of the query projections `v8` against key `j` of a chunk `kk` of 512 cached keys. -/
theorem scores {φ : FTy} (prec : Option ContractPrecision) (v8 : FVec Ideal S256x1024 .f32) (kk : FVec Ideal S1024x512 φ)
    (p : Fin 256) (j : Fin 512) :
    matmul dot_S256x1024_S1024x512_S256x512_1_0_0_1_n_n prec v8 kk (constant S256x512 .f32 0x00000000#32) (ix2 p j)
      = ∑ e : Fin 1024, v8 (ix2 p e) * kk (ix2 e j) :=
  mm_256_1024_512 prec v8 kk p j

/-- The weights of a chunk against the chunk's 512 cached values, at `(p, e)`. -/
theorem weighted {φ₁ φ₂ : FTy} (w : FVec Ideal S256x512 φ₁) (uu : FVec Ideal S512x1024 φ₂) (p : Fin 256) (e : Fin 1024) :
    matmul dot_S256x512_S512x1024_S256x1024_1_0_0_1_n_n none w uu (constant S256x1024 .f32 0x00000000#32) (ix2 p e)
      = ∑ j : Fin 512, w (ix2 p j) * uu (ix2 j e) :=
  mm_256_512_1024 none w uu p e

/-- The pattern of `-∞` as a scalar of the exact instance. -/
theorem negInf : (Scalar.ofBits (F := Ideal) .f32 0xFF800000#32 : Ideal .f32) = ⊥ := ofBits_negInf

/-- The zero pattern as a scalar of the exact instance. -/
theorem zeroWord : (Scalar.ofBits (F := Ideal) .f32 0x00000000#32 : Ideal .f32) = 0 := Ideal.ofBits_zero_f32

end Cert.KernelIdeal.TileOps

end
-- ==== Proof.CacheRow.lean ====
/-
  The three projections of the body and the chunks of the two caches, read at coordinates on the extended reals.

  The query projection of tile row `p`, the key projections stored transposed (inner channel × key position) and
  the value projections (key position × inner channel) are each `∑_d source (row, d) · weights (d, e)`; chunk `k` of
  the key cache is its columns `512·k … 512·k + 511`, chunk `k` of the value cache its rows of the same range.
-/
import proofs.«173240_j14663018348623_2_alg».proof.Proof.TileOps

noncomputable section

namespace Cert.KernelIdeal.CacheRow

open Idealize.ShloMosaic Idealize.ShloMosaic.ValueIdx Cert.KernelIdeal Cert.KernelIdeal.Gen Cert.KernelIdeal.TileOps
open Cert.KernelIdeal.Matmul Cert.KernelIdeal.Pieces

/-- The query projection of tile row `p` at inner channel `e`. -/
theorem pay5_apply (x0 : Vec Ideal S1x256x512 .f32) (wq : Vec Ideal S512x1024 .bf16) (p : Fin 256) (e : Fin 1024) :
    k0_pay5 x0 wq (ix2 p e) = ∑ d : Fin 512, x0 (ix3 (0 : Fin 1) p d) * wq (ix2 d e) := by
  unfold k0_pay5
  refine (mm_256_512_1024 none _ _ p e).trans ?_
  refine Finset.sum_congr rfl fun d _ => ?_
  rw [truncf_apply, shapeCast_1ab_ab_apply, shapeCast_self]

/-- The key cache at (inner channel `e`, key position `m`): the key projection of source row `m`, transposed. -/
theorem cacheK_apply (x1 : Vec Ideal S1x2048x512 .f32) (wk : Vec Ideal S512x1024 .bf16) (e : Fin 1024) (m : Fin 2048) :
    k0_pay3 x1 wk (ix2 e m) = ∑ d : Fin 512, x1 (ix3 (0 : Fin 1) m d) * wk (ix2 d e) := by
  unfold k0_pay3 k0_pay2
  rw [shapeCast_self, transpose_ix2_apply]
  refine (mm_2048_512_1024 none _ _ m e).trans ?_
  refine Finset.sum_congr rfl fun d _ => ?_
  rw [truncf_apply, shapeCast_1ab_ab_apply, shapeCast_self]

/-- The value cache at (key position `m`, inner channel `e`): the value projection of source row `m`. -/
theorem cacheV_apply (x1 : Vec Ideal S1x2048x512 .f32) (wv : Vec Ideal S512x1024 .bf16) (m : Fin 2048) (e : Fin 1024) :
    k0_pay4 x1 wv (ix2 m e) = ∑ d : Fin 512, x1 (ix3 (0 : Fin 1) m d) * wv (ix2 d e) := by
  unfold k0_pay4 k0_pay2
  rw [shapeCast_self, truncf_apply]
  refine (mm_2048_512_1024 none _ _ m e).trans ?_
  refine Finset.sum_congr rfl fun d _ => ?_
  rw [truncf_apply, shapeCast_1ab_ab_apply, shapeCast_self]

/-! ## The chunks: a rectangle of a cache read where it lies -/

theorem keys0_apply (ks : Vec Ideal S1024x2048 .f32) (e : Fin 1024) (j : Fin 512) :
    keys0 ks (ix2 e j) = ks (ix2 e ⟨(0 : Fin 4).val * 512 + j.val, by have := j.isLt; show 0 * 512 + j.val < 2048; omega⟩) := by
  show ks ((Rect.unit (s := S1024x2048) ![0, 0] S1024x512.size _).emb (ix2 e j)) = _
  refine congrArg ks (funext fun a => Fin.ext ?_)
  match a with
  | ⟨0, _⟩ => show 0 + 1 * e.val = e.val; omega
  | ⟨1, _⟩ => show 0 + 1 * j.val = 0 * 512 + j.val; omega

theorem keys1_apply (ks : Vec Ideal S1024x2048 .f32) (e : Fin 1024) (j : Fin 512) :
    keys1 ks (ix2 e j) = ks (ix2 e ⟨(1 : Fin 4).val * 512 + j.val, by have := j.isLt; show 1 * 512 + j.val < 2048; omega⟩) := by
  show ks ((Rect.unit (s := S1024x2048) ![0, 512] S1024x512.size _).emb (ix2 e j)) = _
  refine congrArg ks (funext fun a => Fin.ext ?_)
  match a with
  | ⟨0, _⟩ => show 0 + 1 * e.val = e.val; omega
  | ⟨1, _⟩ => show 512 + 1 * j.val = 1 * 512 + j.val; omega

theorem keys2_apply (ks : Vec Ideal S1024x2048 .f32) (e : Fin 1024) (j : Fin 512) :
    keys2 ks (ix2 e j) = ks (ix2 e ⟨(2 : Fin 4).val * 512 + j.val, by have := j.isLt; show 2 * 512 + j.val < 2048; omega⟩) := by
  show ks ((Rect.unit (s := S1024x2048) ![0, 1024] S1024x512.size _).emb (ix2 e j)) = _
  refine congrArg ks (funext fun a => Fin.ext ?_)
  match a with
  | ⟨0, _⟩ => show 0 + 1 * e.val = e.val; omega
  | ⟨1, _⟩ => show 1024 + 1 * j.val = 2 * 512 + j.val; omega

theorem keys3_apply (ks : Vec Ideal S1024x2048 .f32) (e : Fin 1024) (j : Fin 512) :
    keys3 ks (ix2 e j) = ks (ix2 e ⟨(3 : Fin 4).val * 512 + j.val, by have := j.isLt; show 3 * 512 + j.val < 2048; omega⟩) := by
  show ks ((Rect.unit (s := S1024x2048) ![0, 1536] S1024x512.size _).emb (ix2 e j)) = _
  refine congrArg ks (funext fun a => Fin.ext ?_)
  match a with
  | ⟨0, _⟩ => show 0 + 1 * e.val = e.val; omega
  | ⟨1, _⟩ => show 1536 + 1 * j.val = 3 * 512 + j.val; omega

theorem vals0_apply (vs : Vec Ideal S2048x1024 .bf16) (j : Fin 512) (e : Fin 1024) :
    vals0 vs (ix2 j e) = vs (ix2 ⟨(0 : Fin 4).val * 512 + j.val, by have := j.isLt; show 0 * 512 + j.val < 2048; omega⟩ e) := by
  show vs ((Rect.unit (s := S2048x1024) ![0, 0] S512x1024.size _).emb (ix2 j e)) = _
  refine congrArg vs (funext fun a => Fin.ext ?_)
  match a with
  | ⟨0, _⟩ => show 0 + 1 * j.val = 0 * 512 + j.val; omega
  | ⟨1, _⟩ => show 0 + 1 * e.val = e.val; omega

theorem vals1_apply (vs : Vec Ideal S2048x1024 .bf16) (j : Fin 512) (e : Fin 1024) :
    vals1 vs (ix2 j e) = vs (ix2 ⟨(1 : Fin 4).val * 512 + j.val, by have := j.isLt; show 1 * 512 + j.val < 2048; omega⟩ e) := by
  show vs ((Rect.unit (s := S2048x1024) ![512, 0] S512x1024.size _).emb (ix2 j e)) = _
  refine congrArg vs (funext fun a => Fin.ext ?_)
  match a with
  | ⟨0, _⟩ => show 512 + 1 * j.val = 1 * 512 + j.val; omega
  | ⟨1, _⟩ => show 0 + 1 * e.val = e.val; omega

theorem vals2_apply (vs : Vec Ideal S2048x1024 .bf16) (j : Fin 512) (e : Fin 1024) :
    vals2 vs (ix2 j e) = vs (ix2 ⟨(2 : Fin 4).val * 512 + j.val, by have := j.isLt; show 2 * 512 + j.val < 2048; omega⟩ e) := by
  show vs ((Rect.unit (s := S2048x1024) ![1024, 0] S512x1024.size _).emb (ix2 j e)) = _
  refine congrArg vs (funext fun a => Fin.ext ?_)
  match a with
  | ⟨0, _⟩ => show 1024 + 1 * j.val = 2 * 512 + j.val; omega
  | ⟨1, _⟩ => show 0 + 1 * e.val = e.val; omega

theorem vals3_apply (vs : Vec Ideal S2048x1024 .bf16) (j : Fin 512) (e : Fin 1024) :
    vals3 vs (ix2 j e) = vs (ix2 ⟨(3 : Fin 4).val * 512 + j.val, by have := j.isLt; show 3 * 512 + j.val < 2048; omega⟩ e) := by
  show vs ((Rect.unit (s := S2048x1024) ![1536, 0] S512x1024.size _).emb (ix2 j e)) = _
  refine congrArg vs (funext fun a => Fin.ext ?_)
  match a with
  | ⟨0, _⟩ => show 1536 + 1 * j.val = 3 * 512 + j.val; omega
  | ⟨1, _⟩ => show 0 + 1 * e.val = e.val; omega

end Cert.KernelIdeal.CacheRow

end
-- ==== Proof.Attention.lean ====
/-
  Cross-attention with an output projection, as ONE function of the seven argument arrays.

  For a batch `b`, a query row `n` and an output channel `c`:
    Q[b,n,e] = ∑_d S2[b,n,d] · Wq[d,e],   K[b,m,e] = ∑_d S1[b,m,d] · Wk[d,e],   V[b,m,e] = ∑_d S1[b,m,d] · Wv[d,e]
    t[b,n,m] = ∑_e Q[b,n,e] · K[b,m,e]                      (the scores; no scaling)
    A[b,n,e] = ∑_m softmax_m(t[b,n,·])_m · V[b,m,e]          (every weight divided by the normaliser first)
    out[b,n,c] = ∑_e A[b,n,e] · Wo[e,c] + bo[c]
  over the extended reals, the row's maximum taken from `-∞` and the weights `exp (t - max)` as in a numerically
  stable softmax (the row definitions are those of the softmax-row module). Nothing here mentions a program.
-/
import Idealize.ShloMosaic.PureOps.Ideal
import Idealize.ShloMosaic.Lib.ValueIdx
import proofs.«173240_j14663018348623_2_alg».proof.Proof.LibSoftmaxRow

noncomputable section

namespace Cert.Attention

open Idealize.ShloMosaic Idealize.ShloMosaic.ValueIdx Cert.SoftmaxRow

/-- The two sequence arrays and the result: batch × position × channel. -/
abbrev Seq : Shape := ⟨3, ![8, 2048, 512]⟩
/-- The three input projections' weights: channel × inner channel. -/
abbrev WIn : Shape := ⟨2, ![512, 1024]⟩
/-- The output projection's weights: inner channel × channel. -/
abbrev WOut : Shape := ⟨2, ![1024, 512]⟩
/-- The output bias. -/
abbrev Bias : Shape := ⟨1, ![512]⟩

/-- Row `n` of batch `b` of a sequence array projected by a weight matrix, at inner channel `e`. -/
def proj (S : Seq.Idx → EReal) (W : WIn.Idx → EReal) (b : Fin 8) (n : Fin 2048) (e : Fin 1024) : EReal :=
  ∑ d : Fin 512, S (ix3 b n d) * W (ix2 d e)

/-- The score of query row `n` against key row `m` in batch `b`. -/
def score (S1 S2 : Seq.Idx → EReal) (Wq Wk : WIn.Idx → EReal) (b : Fin 8) (n m : Fin 2048) : EReal :=
  ∑ e : Fin 1024, proj S2 Wq b n e * proj S1 Wk b m e

/-- The attended value of query row `n` of batch `b` at inner channel `e`: the softmax of the row's scores
    (each weight normalised) against the value projections. -/
def attended (S1 S2 : Seq.Idx → EReal) (Wq Wk Wv : WIn.Idx → EReal) (b : Fin 8) (n : Fin 2048) (e : Fin 1024) : EReal :=
  attnNormalised (score S1 S2 Wq Wk b n) (fun m => proj S1 Wv b m e)

/-- THE RESULT ARRAY: the attended values through the output projection, plus the bias. -/
def attention (S1 S2 : Seq.Idx → EReal) (Wq Wk Wv : WIn.Idx → EReal) (Wo : WOut.Idx → EReal) (bo : Bias.Idx → EReal)
    (i : Seq.Idx) : EReal :=
  (∑ e : Fin 1024, attended S1 S2 Wq Wk Wv (i 0) (i 1) e * Wo (ix2 e (i 2))) + bo (ix1 (i 2))

/-- With real entries everywhere, a projection is a real. -/
theorem proj_isReal {S : Seq.Idx → EReal} {W : WIn.Idx → EReal} (hS : ∀ i, IsReal (S i)) (hW : ∀ i, IsReal (W i))
    (b : Fin 8) (n : Fin 2048) (e : Fin 1024) : IsReal (proj S W b n e) :=
  isReal_sum _ _ fun _ => (hS _).mul (hW _)

/-- … and so is a score. -/
theorem score_isReal {S1 S2 : Seq.Idx → EReal} {Wq Wk : WIn.Idx → EReal} (h1 : ∀ i, IsReal (S1 i)) (h2 : ∀ i, IsReal (S2 i))
    (hq : ∀ i, IsReal (Wq i)) (hk : ∀ i, IsReal (Wk i)) (b : Fin 8) (n m : Fin 2048) : IsReal (score S1 S2 Wq Wk b n m) :=
  isReal_sum _ _ fun _ => (proj_isReal h2 hq b n _).mul (proj_isReal h1 hk b m _)

/-- With real entries, the attended value is the weighted sum divided ONCE by the normaliser. -/
theorem attended_eq_deferred {S1 S2 : Seq.Idx → EReal} {Wq Wk Wv : WIn.Idx → EReal} (h1 : ∀ i, IsReal (S1 i))
    (h2 : ∀ i, IsReal (S2 i)) (hq : ∀ i, IsReal (Wq i)) (hk : ∀ i, IsReal (Wk i)) (hv : ∀ i, IsReal (Wv i))
    (b : Fin 8) (n : Fin 2048) (e : Fin 1024) :
    attended S1 S2 Wq Wk Wv b n e = attnDeferred (score S1 S2 Wq Wk b n) (fun m => proj S1 Wv b m e) :=
  attnNormalised_eq_attnDeferred (by norm_num) _ _ (fun m => score_isReal h1 h2 hq hk b n m) (fun m => proj_isReal h1 hv b m e)

end Cert.Attention

end
-- ==== Proof.KernelCaches.lean ====
/-
  The two caches are carried across a batch's eight tiles, so every grid point's output is `tile` of its query
  tile and of its batch's key and value projections.

  At a batch's first tile (`t % 8 = 0`) the body stores the transposed key projections and the value projections
  of the batch's source rows; the seven tiles that follow leave both caches untouched. By induction on the grid
  point, after point `t` the caches hold batch `t / 8`'s projections, and the output block of point `t` is `tile`
  of the point's loads and those projections.
-/
import proofs.«173240_j14663018348623_2_alg».proof.Proof.KernelBlocks
import proofs.«173240_j14663018348623_2_alg».proof.Proof.KernelWeights
import proofs.«173240_j14663018348623_2_alg».proof.Proof.KernelPieces
import proofs.«173240_j14663018348623_2_alg».proof.Proof.CacheRow
import proofs.«173240_j14663018348623_2_alg».proof.Proof.Attention

noncomputable section

namespace Cert.KernelIdeal.Caches

open Idealize.ShloMosaic Idealize.ShloMosaic.TcCoe Idealize.SL.Sem Idealize.ShloMosaic.ValueIdx
open Cert.KernelIdeal Cert.KernelIdeal.Gen Cert.KernelIdeal.Blocks Cert.KernelIdeal.Pieces Cert.KernelIdeal.CacheRow
open Cert.Attention

variable (m : (ℓ : Loc nD τ sig) → Buf (Elt Ideal) ℓ)

/-- Batch `b`'s key projections, transposed: (inner channel, key position). -/
def keyCache (c : Dev nD) (b : Fin 8) : Vec Ideal S1024x2048 .f32 :=
  fun idx => proj (aS1 m c) (aWk m c) b (idx 1) (idx 0)

/-- Batch `b`'s value projections: (key position, inner channel). -/
def valCache (c : Dev nD) (b : Fin 8) : Vec Ideal S2048x1024 .bf16 :=
  fun idx => proj (aS1 m c) (aWv m c) b (idx 0) (idx 1)

/-- What a batch's first tile stores as the key cache is the batch's transposed key projections. -/
theorem keys_first (c : Dev nD) (t : Fin cfg0.N) :
    (k0_pay3 (iblk m c 1 t) (iblk m c 3 t) : Vec Ideal S1024x2048 .f32) = keyCache m c (batch t) := by
  funext idx
  obtain ⟨e, r, rfl⟩ : ∃ (e : Fin 1024) (r : Fin 2048), idx = ix2 e r := ⟨idx 0, idx 1, eq_ix2 idx⟩
  rw [cacheK_apply]
  show _ = proj (aS1 m c) (aWk m c) (batch t) r e
  unfold proj
  refine Finset.sum_congr rfl fun d _ => ?_
  rw [source_apply, wk_apply]

/-- … and as the value cache the batch's value projections. -/
theorem vals_first (c : Dev nD) (t : Fin cfg0.N) :
    (k0_pay4 (iblk m c 1 t) (iblk m c 4 t) : Vec Ideal S2048x1024 .bf16) = valCache m c (batch t) := by
  funext idx
  obtain ⟨r, e, rfl⟩ : ∃ (r : Fin 2048) (e : Fin 1024), idx = ix2 r e := ⟨idx 0, idx 1, eq_ix2 idx⟩
  rw [cacheV_apply]
  show _ = proj (aS1 m c) (aWv m c) (batch t) r e
  unfold proj
  refine Finset.sum_congr rfl fun d _ => ?_
  rw [source_apply, wv_apply]

/-- At a batch's first tile the caches are stored: they hold the batch's projections. -/
theorem caches_first (c : Dev nD) (t : Fin cfg0.N) (h0 : t.val % 8 = 0) :
    (outsAt0 m c t.val t.isLt).2.1 = keyCache m c (batch t) ∧ (outsAt0 m c t.val t.isLt).2.2 = valCache m c (batch t) := by
  rw [outsAt0_A m c t h0]
  dsimp only
  rw [cacheK_first, cacheV_first]
  exact ⟨keys_first m c t, vals_first m c t⟩

/-- At any other tile they are what the point before left. -/
theorem caches_later (c : Dev nD) (t : Fin cfg0.N) (h0 : ¬t.val % 8 = 0) :
    (outsAt0 m c t.val t.isLt).2.1 = (outsAt0 m c (t.val - 1) (Nat.lt_of_le_of_lt (Nat.sub_le _ _) t.isLt)).2.1 ∧ (outsAt0 m c t.val t.isLt).2.2 = (outsAt0 m c (t.val - 1) (Nat.lt_of_le_of_lt (Nat.sub_le _ _) t.isLt)).2.2 := by
  rw [outsAt0_B m c t h0]
  dsimp only
  exact ⟨rfl, rfl⟩

/-- AFTER EVERY POINT the caches hold the point's batch's projections. -/
theorem caches (c : Dev nD) (n : ℕ) : ∀ h : n < cfg0.N,
    (outsAt0 m c n h).2.1 = keyCache m c (batch ⟨n, h⟩) ∧ (outsAt0 m c n h).2.2 = valCache m c (batch ⟨n, h⟩) := by
  induction n with
  | zero => intro h; exact caches_first m c ⟨0, h⟩ rfl
  | succ n ih =>
    intro h
    by_cases h0 : (n + 1) % 8 = 0
    · exact caches_first m c ⟨n + 1, h⟩ h0
    · have hl := caches_later m c ⟨n + 1, h⟩ h0
      have hp := ih (Nat.lt_of_succ_lt h)
      have hb : batch ⟨n + 1, h⟩ = batch ⟨n, Nat.lt_of_succ_lt h⟩ := Fin.ext (by show (n + 1) / 8 = n / 8; omega)
      rw [hb]
      exact ⟨hl.1.trans hp.1, hl.2.trans hp.2⟩

/-- THE OUTPUT BLOCK of point `t`: `tile` of its query tile, the weights, the bias and its batch's projections. -/
theorem out_eq (c : Dev nD) (t : Fin cfg0.N) :
    (outsAt0 m c t.val t.isLt).1
      = tile (iblk m c 0 t) (iblk m c 2 t) (iblk m c 5 t) (iblk m c 6 t) (keyCache m c (batch t)) (valCache m c (batch t)) := by
  by_cases h0 : t.val % 8 = 0
  · rw [outsAt0_A m c t h0]
    dsimp only
    rw [out_first, keys_first, vals_first]
  · rw [outsAt0_B m c t h0]
    dsimp only
    rw [out_later]
    have hlt : t.val - 1 < cfg0.N := Nat.lt_of_le_of_lt (Nat.sub_le _ _) t.isLt
    have ih := caches m c (t.val - 1) hlt
    have hb : batch ⟨t.val - 1, hlt⟩ = batch t := Fin.ext (by show (t.val - 1) / 8 = t.val / 8; omega)
    rw [ih.1, ih.2, hb]

end Cert.KernelIdeal.Caches

end
-- ==== Proof.KernelCover.lean ====
/-
  The 64 output blocks fill the result array.

  Grid point `t` writes back the block of rows `256·(t % 8) … 256·(t % 8) + 255` of batch `t / 8`; every index
  `(b, n, k)` of the `8 × 2048 × 512` result lies in the block of point `8·b + n / 256`.
-/
import proofs.«173240_j14663018348623_2_alg».proof.Proof.KernelBlocks

noncomputable section

namespace Cert.KernelIdeal.Blocks

open Idealize.ShloMosaic Idealize.ShloMosaic.TcCoe Idealize.SL.Sem Idealize.ShloMosaic.ValueIdx
open Cert.KernelIdeal Cert.KernelIdeal.Gen

/-- Every index of the result array is in the block of a grid point that writes back. -/
theorem cover (i : S8x2048x512.Idx) :
    ∃ t : Fin cfg0.N, (cfg0.win 7).flush t = true ∧ i ∈ ((cfg0.win 7).blk t).view.set := by
  have hN : cfg0.N = 64 := N_0
  have h0 : (i 0).val < 8 := (i 0).isLt
  have h1 : (i 1).val < 2048 := (i 1).isLt
  have h2 : (i 2).val < 512 := (i 2).isLt
  refine ⟨⟨(i 0).val * 8 + (i 1).val / 256, by omega⟩, flush0_7 _, ?_⟩
  generalize ht : (⟨(i 0).val * 8 + (i 1).val / 256, by omega⟩ : Fin cfg0.N) = t
  have htv : t.val = (i 0).val * 8 + (i 1).val / 256 := by rw [← ht]
  obtain ⟨-, -, -, -, -, -, -, -, -, -, -, -, -, -, -, -, e0, e1, e2⟩ := idx_facts t
  show i ∈ ((View.whole main_v5).slice (win0_7.rect t)).set
  rw [View.set_slice_whole, Rect.mem_set_unit]
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 256 ≤ (i 1).val ∧ (i 1).val < win0_7.index t (1 : Fin 3) * 256 + 256; omega
  | ⟨2, _⟩ => show win0_7.index t (2 : Fin 3) * 512 ≤ (i 2).val ∧ (i 2).val < win0_7.index t (2 : Fin 3) * 512 + 512; omega

end Cert.KernelIdeal.Blocks

end
-- ==== Proof.TileFirst.lean ====
/-
  The first chunk of a tile's running softmax.

  From the state `(-∞, 0, 0)` the body takes the first 512 keys: for query row `p` and inner channel `e` the running
  maximum, normaliser and weighted sum it then holds are one `step` of the online softmax from `(⊥, 0, 0)`, with the
  row's scores against the chunk's keys and the chunk's values at channel `e`.
-/
import proofs.«173240_j14663018348623_2_alg».proof.Proof.TileOps

noncomputable section

namespace Cert.KernelIdeal.TileFirst

open Idealize.ShloMosaic Idealize.ShloMosaic.ValueIdx Cert.KernelIdeal Cert.KernelIdeal.Gen Cert.KernelIdeal.TileOps
open Cert.SoftmaxRow Cert.OnlineSoftmax

variable (x0 : Vec Ideal S1x256x512 .f32) (wq : Vec Ideal S512x1024 .bf16) (k0 : Vec Ideal S1024x512 .f32)
  (u0 : Vec Ideal S512x1024 .bf16) (p : Fin 256)

/-- Row `p`'s scores against the first chunk's 512 keys. -/
abbrev sc0 : Fin 512 → EReal := fun j => ∑ e' : Fin 1024, k0_pay5 x0 wq (ix2 p e') * k0 (ix2 e' j)

theorem exp_apply {s : Shape} {φ : FTy} (v : FVec Ideal s φ) (i : s.Idx) : exp v i = Ideal.exp (v i) := rfl

/-- The first score chunk at `(p, j)`. -/
theorem pay7_apply (j : Fin 512) : k0_pay7 x0 wq k0 (ix2 p j) = sc0 x0 wq k0 p j := by
  unfold k0_pay7
  exact scores _ _ _ p j

/-- The starting maximum is `-∞`. -/
theorem pay6_apply (u : Fin 1) : k0_pay6 (F := Ideal) (ix2 p u) = ⊥ := negInf

/-- The maximum after the first chunk. -/
theorem pay8_apply (u : Fin 1) : k0_pay8 x0 wq k0 (ix2 p u) = max ⊥ (rowMax (sc0 x0 wq k0 p)) := by
  unfold k0_pay8
  dsimp only
  rw [maximumf_apply, colMax, pay6_apply]
  simp only [pay7_apply]

/-- The factor that rescales the (empty) sums so far. -/
theorem pay9_apply (u : Fin 1) : k0_pay9 x0 wq k0 (ix2 p u) = Ideal.exp (⊥ - max ⊥ (rowMax (sc0 x0 wq k0 p))) := by
  unfold k0_pay9
  rw [exp_apply, subf_apply, pay6_apply, pay8_apply]

/-- The first chunk's weights. -/
theorem pay10_apply (j : Fin 512) :
    k0_pay10 x0 wq k0 (ix2 p j) = Ideal.exp (sc0 x0 wq k0 p j - max ⊥ (rowMax (sc0 x0 wq k0 p))) := by
  unfold k0_pay10
  rw [exp_apply, subf_apply, spread512, pay7_apply, pay8_apply]

/-- The normaliser after the first chunk. -/
theorem pay11_apply (u : Fin 1) :
    k0_pay11 x0 wq k0 (ix2 p u)
      = Ideal.exp (⊥ - max ⊥ (rowMax (sc0 x0 wq k0 p))) * 0
        + ∑ j : Fin 512, Ideal.exp (sc0 x0 wq k0 p j - max ⊥ (rowMax (sc0 x0 wq k0 p))) := by
  unfold k0_pay11
  dsimp only
  rw [addf_apply, mulf_apply, colSum, pay9_apply, broadcast_apply, zeroWord]
  simp only [pay10_apply]

/-- The weighted sum after the first chunk, at inner channel `e`. -/
theorem pay12_apply (e : Fin 1024) :
    k0_pay12 x0 wq k0 u0 (ix2 p e)
      = Ideal.exp (⊥ - max ⊥ (rowMax (sc0 x0 wq k0 p))) * 0
        + ∑ j : Fin 512, Ideal.exp (sc0 x0 wq k0 p j - max ⊥ (rowMax (sc0 x0 wq k0 p))) * u0 (ix2 j e) := by
  unfold k0_pay12
  rw [addf_apply, mulf_apply, spread1024, pay9_apply, broadcast_apply, zeroWord, weighted]
  simp only [truncf_apply, pay10_apply]

/-- Row `p`'s state after the first chunk `k0` (keys) / `u0` (values), at inner channel `e`. -/
theorem first_state (e : Fin 1024) :
    (k0_pay8 x0 wq k0 (ix2 p (0 : Fin 1)), k0_pay11 x0 wq k0 (ix2 p (0 : Fin 1)), k0_pay12 x0 wq k0 u0 (ix2 p e))
      = step (⊥, 0, 0) (fun j : Fin 512 => ∑ e' : Fin 1024, k0_pay5 x0 wq (ix2 p e') * k0 (ix2 e' j))
          (fun j : Fin 512 => u0 (ix2 j e)) := by
  rw [pay8_apply, pay11_apply, pay12_apply]
  rfl

end Cert.KernelIdeal.TileFirst

end
-- ==== Proof.TileMid.lean ====
/-
  The second and third chunks of a tile's running softmax.

  Whatever state `(m, l, a)` row `p` holds at inner channel `e` after the first chunk, the body's next two chunks of
  512 keys move it by two `step`s of the online softmax, each with the row's scores against that chunk's keys and
  the chunk's values at channel `e`.
-/
import proofs.«173240_j14663018348623_2_alg».proof.Proof.TileOps

noncomputable section

namespace Cert.KernelIdeal.TileMid

open Idealize.ShloMosaic Idealize.ShloMosaic.ValueIdx Cert.KernelIdeal Cert.KernelIdeal.Gen Cert.KernelIdeal.TileOps
open Cert.SoftmaxRow Cert.OnlineSoftmax

/-- Row `p`'s scores against the 512 keys of a chunk `kk`. -/
def sc (v8 : FVec Ideal S256x1024 .f32) (kk : Vec Ideal S1024x512 .f32) (p : Fin 256) (j : Fin 512) : EReal :=
  ∑ e' : Fin 1024, v8 (ix2 p e') * kk (ix2 e' j)

/-- Row `p`'s maximum after the first of the two chunks. -/
def m1 (v8 : FVec Ideal S256x1024 .f32) (v17 : FVec Ideal S256x1 .f32) (k1 : Vec Ideal S1024x512 .f32) (p : Fin 256) : EReal :=
  max (v17 (ix2 p (0 : Fin 1))) (rowMax (sc v8 k1 p))

/-- Row `p`'s maximum after both chunks. -/
def m2 (v8 : FVec Ideal S256x1024 .f32) (v17 : FVec Ideal S256x1 .f32) (k1 k2 : Vec Ideal S1024x512 .f32) (p : Fin 256) : EReal :=
  max (m1 v8 v17 k1 p) (rowMax (sc v8 k2 p))

section
variable (v8 : FVec Ideal S256x1024 .f32) (v17 v26 : FVec Ideal S256x1 .f32) (v31 : FVec Ideal S256x1024 .f32)
  (k1 k2 : Vec Ideal S1024x512 .f32) (u1 u2 : Vec Ideal S512x1024 .bf16) (p : Fin 256) (e : Fin 1024)

/-- The first chunk's score product at `(p, j)`. -/
theorem pay13_at (j : Fin 512) : k0_pay13 v8 k1 (ix2 p j) = sc v8 k1 p j :=
  scores (some .fp32) v8 k1 p j

/-- The second chunk's score product at `(p, j)`. -/
theorem pay17_at (j : Fin 512) : k0_pay17 v8 k2 (ix2 p j) = sc v8 k2 p j :=
  scores (some .fp32) v8 k2 p j

/-- The maximum after the first chunk, at row `p`. -/
theorem pay14_at : k0_pay14 v8 v17 k1 (ix2 p (0 : Fin 1)) = m1 v8 v17 k1 p := by
  show max (v17 (ix2 p (0 : Fin 1))) (shapeCast S256x1 (multiReduction .maximumf [1] S256 (k0_pay13 v8 k1) 0xFF800000#32
    reduces_S256x512_S256 (.inl rfl) rfl) shapeCasts_S256_S256x1 (ix2 p (0 : Fin 1))) = _
  rw [colMax]
  exact congrArg (fun f => max (v17 (ix2 p (0 : Fin 1))) (rowMax f)) (funext fun j => pay13_at v8 k1 p j)

/-- The first chunk's rescale factor `exp (m - m₁)`, at row `p`. -/
theorem pay15_at : k0_pay15 v8 v17 k1 (ix2 p (0 : Fin 1)) = Ideal.exp (v17 (ix2 p (0 : Fin 1)) - m1 v8 v17 k1 p) := by
  show Ideal.exp (v17 (ix2 p (0 : Fin 1)) - k0_pay14 v8 v17 k1 (ix2 p (0 : Fin 1))) = _
  rw [pay14_at]

/-- The first chunk's weights `exp (s - m₁)`, at `(p, j)`. -/
theorem pay16_at (j : Fin 512) : k0_pay16 v8 v17 k1 (ix2 p j) = Ideal.exp (sc v8 k1 p j - m1 v8 v17 k1 p) := by
  show Ideal.exp (k0_pay13 v8 k1 (ix2 p j)
    - broadcastTo S256x512 (k0_pay14 v8 v17 k1) broadcasts_S256x1_S256x512 (ix2 p j)) = _
  rw [spread512, pay13_at, pay14_at]

/-- The maximum after both chunks, at row `p`. -/
theorem pay18_at : k0_pay18 v8 v17 k1 k2 (ix2 p (0 : Fin 1)) = m2 v8 v17 k1 k2 p := by
  show max (k0_pay14 v8 v17 k1 (ix2 p (0 : Fin 1))) (shapeCast S256x1 (multiReduction .maximumf [1] S256 (k0_pay17 v8 k2)
    0xFF800000#32 reduces_S256x512_S256 (.inl rfl) rfl) shapeCasts_S256_S256x1 (ix2 p (0 : Fin 1))) = _
  rw [colMax, pay14_at]
  exact congrArg (fun f => max (m1 v8 v17 k1 p) (rowMax f)) (funext fun j => pay17_at v8 k2 p j)

/-- The second chunk's rescale factor `exp (m₁ - m₂)`, at row `p`. -/
theorem pay19_at : k0_pay19 v8 v17 k1 k2 (ix2 p (0 : Fin 1)) = Ideal.exp (m1 v8 v17 k1 p - m2 v8 v17 k1 k2 p) := by
  show Ideal.exp (k0_pay14 v8 v17 k1 (ix2 p (0 : Fin 1)) - k0_pay18 v8 v17 k1 k2 (ix2 p (0 : Fin 1))) = _
  rw [pay14_at, pay18_at]

/-- The second chunk's weights `exp (s - m₂)`, at `(p, j)`. -/
theorem pay20_at (j : Fin 512) :
    k0_pay20 v8 v17 k1 k2 (ix2 p j) = Ideal.exp (sc v8 k2 p j - m2 v8 v17 k1 k2 p) := by
  show Ideal.exp (k0_pay17 v8 k2 (ix2 p j)
    - broadcastTo S256x512 (k0_pay18 v8 v17 k1 k2) broadcasts_S256x1_S256x512 (ix2 p j)) = _
  rw [spread512, pay17_at, pay18_at]

/-- The normaliser through both chunks, at row `p`. -/
theorem pay21_at : k0_pay21 v8 v17 v26 k1 k2 (ix2 p (0 : Fin 1))
    = Ideal.exp (m1 v8 v17 k1 p - m2 v8 v17 k1 k2 p)
        * (Ideal.exp (v17 (ix2 p (0 : Fin 1)) - m1 v8 v17 k1 p) * v26 (ix2 p (0 : Fin 1))
            + ∑ j : Fin 512, Ideal.exp (sc v8 k1 p j - m1 v8 v17 k1 p))
      + ∑ j : Fin 512, Ideal.exp (sc v8 k2 p j - m2 v8 v17 k1 k2 p) := by
  show k0_pay19 v8 v17 k1 k2 (ix2 p (0 : Fin 1))
        * (k0_pay15 v8 v17 k1 (ix2 p (0 : Fin 1)) * v26 (ix2 p (0 : Fin 1))
            + shapeCast S256x1 (multiReduction .add [1] S256 (k0_pay16 v8 v17 k1) 0x00000000#32 reduces_S256x512_S256
                (.inl rfl) rfl) shapeCasts_S256_S256x1 (ix2 p (0 : Fin 1)))
      + shapeCast S256x1 (multiReduction .add [1] S256 (k0_pay20 v8 v17 k1 k2) 0x00000000#32 reduces_S256x512_S256
          (.inl rfl) rfl) shapeCasts_S256_S256x1 (ix2 p (0 : Fin 1)) = _
  rw [colSum, colSum, pay19_at, pay15_at]
  simp only [pay16_at, pay20_at]

/-- The weighted sum through both chunks, at `(p, e)`. -/
theorem pay22_at : k0_pay22 v8 v17 v31 k1 u1 k2 u2 (ix2 p e)
    = Ideal.exp (m1 v8 v17 k1 p - m2 v8 v17 k1 k2 p)
        * (Ideal.exp (v17 (ix2 p (0 : Fin 1)) - m1 v8 v17 k1 p) * v31 (ix2 p e)
            + ∑ j : Fin 512, Ideal.exp (sc v8 k1 p j - m1 v8 v17 k1 p) * u1 (ix2 j e))
      + ∑ j : Fin 512, Ideal.exp (sc v8 k2 p j - m2 v8 v17 k1 k2 p) * u2 (ix2 j e) := by
  show broadcastTo S256x1024 (k0_pay19 v8 v17 k1 k2) broadcasts_S256x1_S256x1024 (ix2 p e)
        * (broadcastTo S256x1024 (k0_pay15 v8 v17 k1) broadcasts_S256x1_S256x1024 (ix2 p e) * v31 (ix2 p e)
            + matmul dot_S256x512_S512x1024_S256x1024_1_0_0_1_n_n none
                (truncf .bf16 (k0_pay16 v8 v17 k1) bitsLt_bf16_f32) u1 (constant S256x1024 .f32 0x00000000#32) (ix2 p e))
      + matmul dot_S256x512_S512x1024_S256x1024_1_0_0_1_n_n none
          (truncf .bf16 (k0_pay20 v8 v17 k1 k2) bitsLt_bf16_f32) u2 (constant S256x1024 .f32 0x00000000#32) (ix2 p e) = _
  rw [spread1024, spread1024, weighted, weighted, pay19_at, pay15_at]
  simp only [truncf_apply, pay16_at, pay20_at]

end

/-- Row `p`'s state after the chunks `k1 / u1` and `k2 / u2`, from the state `(v17, v26, v31)` at `(p, ·)`. -/
theorem mid_state (v8 : FVec Ideal S256x1024 .f32) (v17 v26 : FVec Ideal S256x1 .f32) (v31 : FVec Ideal S256x1024 .f32)
    (k1 k2 : Vec Ideal S1024x512 .f32) (u1 u2 : Vec Ideal S512x1024 .bf16) (p : Fin 256) (e : Fin 1024) :
    (k0_pay18 v8 v17 k1 k2 (ix2 p (0 : Fin 1)), k0_pay21 v8 v17 v26 k1 k2 (ix2 p (0 : Fin 1)),
        k0_pay22 v8 v17 v31 k1 u1 k2 u2 (ix2 p e))
      = step (step (v17 (ix2 p (0 : Fin 1)), v26 (ix2 p (0 : Fin 1)), v31 (ix2 p e))
            (fun j : Fin 512 => ∑ e' : Fin 1024, v8 (ix2 p e') * k1 (ix2 e' j)) (fun j : Fin 512 => u1 (ix2 j e)))
          (fun j : Fin 512 => ∑ e' : Fin 1024, v8 (ix2 p e') * k2 (ix2 e' j)) (fun j : Fin 512 => u2 (ix2 j e)) := by
  rw [pay18_at, pay21_at, pay22_at]
  rfl

end Cert.KernelIdeal.TileMid

end
-- ==== Proof.TileLast.lean ====
/-
  The last chunk of a tile's running softmax, the quotient and the output projection.

  From the state `(m, l, a)` row `p` holds after three chunks, the body takes the last 512 keys (one more `step`),
  divides the weighted sum by the normaliser at every inner channel `e`, contracts the quotients against the output
  weights and adds the bias: the output block at `(0, p, c)`.
-/
import proofs.«173240_j14663018348623_2_alg».proof.Proof.TileOps

noncomputable section

namespace Cert.KernelIdeal.TileLast

open Idealize.ShloMosaic Idealize.ShloMosaic.ValueIdx Cert.KernelIdeal Cert.KernelIdeal.Gen Cert.KernelIdeal.TileOps
open Cert.SoftmaxRow Cert.OnlineSoftmax

/-- The exponential of a vector, read at an index. -/
theorem exp_apply {s : Shape} {φ : FTy} (v : FVec Ideal s φ) (i : s.Idx) : exp v i = Ideal.exp (v i) := rfl

/-- The output block at `(0, p, c)` from ANY score chunk `v74` whose row `p` is `s` and any vector `v75` whose
    entry `p` is the maximum of `s`: the last `step`, the quotient, the output projection and the bias. -/
theorem last_state_of (v57 v66 : FVec Ideal S256x1 .f32) (v71 : FVec Ideal S256x1024 .f32)
    (u3 : Vec Ideal S512x1024 .bf16) (v74 : FVec Ideal S256x512 .f32) (v75 : FVec Ideal S256 .f32)
    (wo : Vec Ideal S1024x512 .bf16) (bo : Vec Ideal S1x512 .f32) (p : Fin 256) (c : Fin 512) (s : Fin 512 → EReal)
    (h74 : ∀ j : Fin 512, v74 (ix2 p j) = s j) (h75 : v75 (ix1 p) = rowMax s) :
    k0_pay1 v57 v66 v71 u3 v74 v75 wo bo (ix3 (0 : Fin 1) p c)
      = (∑ e : Fin 1024,
          Ideal.div
            (step (v57 (ix2 p (0 : Fin 1)), v66 (ix2 p (0 : Fin 1)), v71 (ix2 p e)) s (fun j : Fin 512 => u3 (ix2 j e))).2.2
            (step (v57 (ix2 p (0 : Fin 1)), v66 (ix2 p (0 : Fin 1)), v71 (ix2 p e)) s (fun j : Fin 512 => u3 (ix2 j e))).2.1
            * wo (ix2 e c))
        + bo (ix2 (0 : Fin 1) c) := by
  unfold k0_pay1
  dsimp only
  generalize hm : maximumf v57 (shapeCast S256x1 v75 shapeCasts_S256_S256x1) = vm
  have hmax : vm (ix2 p (0 : Fin 1)) = max (v57 (ix2 p (0 : Fin 1))) (rowMax s) := by
    rw [← hm, maximumf_apply, colOf, h75]
  clear hm
  generalize hα : exp (subf v57 vm) = va
  have hα' : va (ix2 p (0 : Fin 1)) = Ideal.exp (v57 (ix2 p (0 : Fin 1)) - max (v57 (ix2 p (0 : Fin 1))) (rowMax s)) := by
    rw [← hα, exp_apply, subf_apply, hmax]
  clear hα
  generalize hw : exp (subf v74 (broadcastTo S256x512 vm broadcasts_S256x1_S256x512)) = vw
  have hw' : ∀ j : Fin 512, vw (ix2 p j) = Ideal.exp (s j - max (v57 (ix2 p (0 : Fin 1))) (rowMax s)) := fun j => by
    rw [← hw, exp_apply, subf_apply, spread512, hmax, h74]
  clear hw
  generalize hs : shapeCast S256x1 (multiReduction .add [1] S256 vw 0x00000000#32 reduces_S256x512_S256 (.inl rfl) rfl)
    shapeCasts_S256_S256x1 = vs
  have hs' : vs (ix2 p (0 : Fin 1)) = ∑ j : Fin 512, Ideal.exp (s j - max (v57 (ix2 p (0 : Fin 1))) (rowMax s)) := by
    rw [← hs]
    exact (colSum vw p 0).trans (Finset.sum_congr rfl fun j _ => hw' j)
  clear hs
  rw [shapeCast_ab_1ab_apply, addf_apply, broadcastTo_1b_ab_apply]
  simp only [shapeCast_self]
  rw [Cert.KernelIdeal.Matmul.mm_256_1024_512]
  refine congrArg (· + bo (ix2 (0 : Fin 1) c)) (Finset.sum_congr rfl fun e _ => ?_)
  refine congrArg (· * wo (ix2 e c)) ?_
  simp only [truncf_apply, divf_apply, spread1024, addf_apply, mulf_apply, hα', hs',
    Cert.KernelIdeal.Matmul.mm_256_512_1024, hw', step]

/-- The output block at `(0, p, c)`: the last `step`, the quotient, the output projection and the bias. -/
theorem last_state (v8 : FVec Ideal S256x1024 .f32) (v57 v66 : FVec Ideal S256x1 .f32) (v71 : FVec Ideal S256x1024 .f32)
    (k3 : Vec Ideal S1024x512 .f32) (u3 : Vec Ideal S512x1024 .bf16) (wo : Vec Ideal S1024x512 .bf16)
    (bo : Vec Ideal S1x512 .f32) (p : Fin 256) (c : Fin 512) :
    k0_pay1 v57 v66 v71 u3 (k0_pay23 v8 k3) (k0_pay24 v8 k3) wo bo (ix3 (0 : Fin 1) p c)
      = (∑ e : Fin 1024,
          Ideal.div
            (step (v57 (ix2 p (0 : Fin 1)), v66 (ix2 p (0 : Fin 1)), v71 (ix2 p e))
              (fun j : Fin 512 => ∑ e' : Fin 1024, v8 (ix2 p e') * k3 (ix2 e' j)) (fun j : Fin 512 => u3 (ix2 j e))).2.2
            (step (v57 (ix2 p (0 : Fin 1)), v66 (ix2 p (0 : Fin 1)), v71 (ix2 p e))
              (fun j : Fin 512 => ∑ e' : Fin 1024, v8 (ix2 p e') * k3 (ix2 e' j)) (fun j : Fin 512 => u3 (ix2 j e))).2.1
            * wo (ix2 e c))
        + bo (ix2 (0 : Fin 1) c) := by
  have h74 : ∀ j : Fin 512, k0_pay23 v8 k3 (ix2 p j) = ∑ e' : Fin 1024, v8 (ix2 p e') * k3 (ix2 e' j) :=
    fun j => scores (some .fp32) v8 k3 p j
  have h75 : k0_pay24 v8 k3 (ix1 p) = rowMax (fun j : Fin 512 => ∑ e' : Fin 1024, v8 (ix2 p e') * k3 (ix2 e' j)) :=
    (laneMax (k0_pay23 v8 k3) p).trans (congrArg rowMax (funext h74))
  exact last_state_of v57 v66 v71 u3 (k0_pay23 v8 k3) (k0_pay24 v8 k3) wo bo p c _ h74 h75

end Cert.KernelIdeal.TileLast

end
-- ==== Proof.TileRow.lean ====
/-
  One row of a tile, whole: the four chunks in order are the online softmax's `run`.

  For tile row `p` the body's output block at `(0, p, c)` is
    ∑_e  (a_e / l) · wo (e, c)  +  bo (0, c),
  where `(m, l, a_e)` is the state of the online softmax after the four chunks of the row's 2048 scores
  (`srow`: the row's query projection against every cached key) with the value cache's column `e` (`vcol`).
-/
import proofs.«173240_j14663018348623_2_alg».proof.Proof.CacheRow
import proofs.«173240_j14663018348623_2_alg».proof.Proof.TileFirst
import proofs.«173240_j14663018348623_2_alg».proof.Proof.TileMid
import proofs.«173240_j14663018348623_2_alg».proof.Proof.TileLast

noncomputable section

namespace Cert.KernelIdeal.TileRow

open Idealize.ShloMosaic Idealize.ShloMosaic.ValueIdx Cert.KernelIdeal Cert.KernelIdeal.Gen Cert.KernelIdeal.Pieces
open Cert.KernelIdeal.CacheRow Cert.SoftmaxRow Cert.OnlineSoftmax

/-- Tile row `p`'s query projection at inner channel `e`. -/
def qrow (x0 : Vec Ideal S1x256x512 .f32) (wq : Vec Ideal S512x1024 .bf16) (p : Fin 256) (e : Fin 1024) : EReal :=
  ∑ d : Fin 512, x0 (ix3 (0 : Fin 1) p d) * wq (ix2 d e)

/-- Tile row `p`'s score against cached key `m`. -/
def srow (x0 : Vec Ideal S1x256x512 .f32) (wq : Vec Ideal S512x1024 .bf16) (ks : Vec Ideal S1024x2048 .f32) (p : Fin 256)
    (m : Fin 2048) : EReal :=
  ∑ e : Fin 1024, qrow x0 wq p e * ks (ix2 e m)

/-- Column `e` of the value cache. -/
def vcol (vs : Vec Ideal S2048x1024 .bf16) (e : Fin 1024) (m : Fin 2048) : EReal := vs (ix2 m e)

/-- Row `p`'s scores against key chunk 0 are chunk 0 of the row's 2048 scores. -/
theorem sc_chunk0 (x0 : Vec Ideal S1x256x512 .f32) (wq : Vec Ideal S512x1024 .bf16) (ks : Vec Ideal S1024x2048 .f32) (p : Fin 256) :
    (fun j : Fin 512 => ∑ e' : Fin 1024, k0_pay5 x0 wq (ix2 p e') * keys0 ks (ix2 e' j)) = chunk (srow x0 wq ks p) 0 := by
  funext j
  unfold chunk srow qrow
  exact Finset.sum_congr rfl fun e' _ => by rw [pay5_apply, keys0_apply]

/-- Row `p`'s scores against key chunk 1 are chunk 1 of the row's 2048 scores. -/
theorem sc_chunk1 (x0 : Vec Ideal S1x256x512 .f32) (wq : Vec Ideal S512x1024 .bf16) (ks : Vec Ideal S1024x2048 .f32) (p : Fin 256) :
    (fun j : Fin 512 => ∑ e' : Fin 1024, k0_pay5 x0 wq (ix2 p e') * keys1 ks (ix2 e' j)) = chunk (srow x0 wq ks p) 1 := by
  funext j
  unfold chunk srow qrow
  exact Finset.sum_congr rfl fun e' _ => by rw [pay5_apply, keys1_apply]

/-- Row `p`'s scores against key chunk 2 are chunk 2 of the row's 2048 scores. -/
theorem sc_chunk2 (x0 : Vec Ideal S1x256x512 .f32) (wq : Vec Ideal S512x1024 .bf16) (ks : Vec Ideal S1024x2048 .f32) (p : Fin 256) :
    (fun j : Fin 512 => ∑ e' : Fin 1024, k0_pay5 x0 wq (ix2 p e') * keys2 ks (ix2 e' j)) = chunk (srow x0 wq ks p) 2 := by
  funext j
  unfold chunk srow qrow
  exact Finset.sum_congr rfl fun e' _ => by rw [pay5_apply, keys2_apply]

/-- Row `p`'s scores against key chunk 3 are chunk 3 of the row's 2048 scores. -/
theorem sc_chunk3 (x0 : Vec Ideal S1x256x512 .f32) (wq : Vec Ideal S512x1024 .bf16) (ks : Vec Ideal S1024x2048 .f32) (p : Fin 256) :
    (fun j : Fin 512 => ∑ e' : Fin 1024, k0_pay5 x0 wq (ix2 p e') * keys3 ks (ix2 e' j)) = chunk (srow x0 wq ks p) 3 := by
  funext j
  unfold chunk srow qrow
  exact Finset.sum_congr rfl fun e' _ => by rw [pay5_apply, keys3_apply]

/-- Value chunk 0 at inner channel `e` is chunk 0 of the value cache's column `e`. -/
theorem val_chunk0 (vs : Vec Ideal S2048x1024 .bf16) (e : Fin 1024) :
    (fun j : Fin 512 => vals0 vs (ix2 j e)) = chunk (vcol vs e) 0 := by
  funext j
  exact vals0_apply vs j e

/-- Value chunk 1 at inner channel `e` is chunk 1 of the value cache's column `e`. -/
theorem val_chunk1 (vs : Vec Ideal S2048x1024 .bf16) (e : Fin 1024) :
    (fun j : Fin 512 => vals1 vs (ix2 j e)) = chunk (vcol vs e) 1 := by
  funext j
  exact vals1_apply vs j e

/-- Value chunk 2 at inner channel `e` is chunk 2 of the value cache's column `e`. -/
theorem val_chunk2 (vs : Vec Ideal S2048x1024 .bf16) (e : Fin 1024) :
    (fun j : Fin 512 => vals2 vs (ix2 j e)) = chunk (vcol vs e) 2 := by
  funext j
  exact vals2_apply vs j e

/-- Value chunk 3 at inner channel `e` is chunk 3 of the value cache's column `e`. -/
theorem val_chunk3 (vs : Vec Ideal S2048x1024 .bf16) (e : Fin 1024) :
    (fun j : Fin 512 => vals3 vs (ix2 j e)) = chunk (vcol vs e) 3 := by
  funext j
  exact vals3_apply vs j e

/-- Row `p`'s state at inner channel `e` after the first three chunks: three steps of the online softmax from `(-∞, 0, 0)`. -/
theorem state3 (x0 : Vec Ideal S1x256x512 .f32) (wq : Vec Ideal S512x1024 .bf16) (ks : Vec Ideal S1024x2048 .f32)
    (vs : Vec Ideal S2048x1024 .bf16) (p : Fin 256) (e : Fin 1024) :
    (k0_pay18 (k0_pay5 x0 wq) (k0_pay8 x0 wq (keys0 ks)) (keys1 ks) (keys2 ks) (ix2 p (0 : Fin 1)),
      k0_pay21 (k0_pay5 x0 wq) (k0_pay8 x0 wq (keys0 ks)) (k0_pay11 x0 wq (keys0 ks)) (keys1 ks) (keys2 ks) (ix2 p (0 : Fin 1)),
      k0_pay22 (k0_pay5 x0 wq) (k0_pay8 x0 wq (keys0 ks)) (k0_pay12 x0 wq (keys0 ks) (vals0 vs)) (keys1 ks) (vals1 vs)
        (keys2 ks) (vals2 vs) (ix2 p e))
      = step (step (step (⊥, 0, 0) (chunk (srow x0 wq ks p) 0) (chunk (vcol vs e) 0))
            (chunk (srow x0 wq ks p) 1) (chunk (vcol vs e) 1)) (chunk (srow x0 wq ks p) 2) (chunk (vcol vs e) 2) := by
  rw [TileMid.mid_state, TileFirst.first_state, sc_chunk0, sc_chunk1, sc_chunk2, val_chunk0, val_chunk1, val_chunk2]

/-- THE TILE AT A COORDINATE: the output projection of the four-chunk softmax quotients, plus the bias. -/
theorem tile_apply (x0 : Vec Ideal S1x256x512 .f32) (wq : Vec Ideal S512x1024 .bf16) (wo : Vec Ideal S1024x512 .bf16)
    (bo : Vec Ideal S1x512 .f32) (ks : Vec Ideal S1024x2048 .f32) (vs : Vec Ideal S2048x1024 .bf16) (p : Fin 256) (c : Fin 512) :
    tile x0 wq wo bo ks vs (ix3 (0 : Fin 1) p c)
      = (∑ e : Fin 1024, Ideal.div (run (srow x0 wq ks p) (vcol vs e)).2.2 (run (srow x0 wq ks p) (vcol vs e)).2.1
            * wo (ix2 e c))
        + bo (ix2 (0 : Fin 1) c) := by
  unfold tile
  rw [TileLast.last_state]
  refine congrArg (· + bo (ix2 (0 : Fin 1) c)) (Finset.sum_congr rfl fun e _ => ?_)
  refine congrArg (· * wo (ix2 e c)) ?_
  rw [state3, sc_chunk3, val_chunk3]
  rfl

end Cert.KernelIdeal.TileRow

end
-- ==== Proof.TileAttention.lean ====
/-
  A tile of the kernel's output is the attention function on the tile's rows.

  Hand the tile function a query tile that is rows `n0 … n0 + 255` of batch `b` of the query source, the weights and
  bias as they are, and caches that hold batch `b`'s key and value projections: at `(0, p, c)` it is the attention
  function at `(b, n0 + p, c)`. The row's scores are the attention's scores, the four-chunk online softmax is the
  softmax with the quotient taken once (real entries), and that is the softmax with every weight normalised.
-/
import proofs.«173240_j14663018348623_2_alg».proof.Proof.TileRow
import proofs.«173240_j14663018348623_2_alg».proof.Proof.Attention

noncomputable section

namespace Cert.KernelIdeal.TileAttention

open Idealize.ShloMosaic Idealize.ShloMosaic.ValueIdx Cert.KernelIdeal Cert.KernelIdeal.Gen Cert.KernelIdeal.Pieces
open Cert.KernelIdeal.TileRow Cert.SoftmaxRow Cert.OnlineSoftmax Cert.Attention

/-- The tile at `(0, p, c)` is the attention function at `(b, n0 + p, c)`. -/
theorem tile_eq_attention (S1 S2 : Seq.Idx → EReal) (Wq Wk Wv : WIn.Idx → EReal) (Wo : WOut.Idx → EReal) (bo : Bias.Idx → EReal)
    (h1 : ∀ i, IsReal (S1 i)) (h2 : ∀ i, IsReal (S2 i)) (hq : ∀ i, IsReal (Wq i)) (hk : ∀ i, IsReal (Wk i))
    (hv : ∀ i, IsReal (Wv i)) (b : Fin 8) (n0 : ℕ) (hn0 : n0 + 256 ≤ 2048)
    (x0 : Vec Ideal S1x256x512 .f32)
    (hx0 : ∀ (p : Fin 256) (d : Fin 512), x0 (ix3 (0 : Fin 1) p d) = S2 (ix3 b ⟨n0 + p.val, by have := p.isLt; omega⟩ d))
    (wq : Vec Ideal S512x1024 .bf16) (hwq : ∀ (d : Fin 512) (e : Fin 1024), wq (ix2 d e) = Wq (ix2 d e))
    (wo : Vec Ideal S1024x512 .bf16) (hwo : ∀ (e : Fin 1024) (c : Fin 512), wo (ix2 e c) = Wo (ix2 e c))
    (bo' : Vec Ideal S1x512 .f32) (hbo : ∀ c : Fin 512, bo' (ix2 (0 : Fin 1) c) = bo (ix1 c))
    (ks : Vec Ideal S1024x2048 .f32) (hks : ∀ (e : Fin 1024) (m : Fin 2048), ks (ix2 e m) = proj S1 Wk b m e)
    (vs : Vec Ideal S2048x1024 .bf16) (hvs : ∀ (m : Fin 2048) (e : Fin 1024), vs (ix2 m e) = proj S1 Wv b m e)
    (p : Fin 256) (c : Fin 512) :
    tile x0 wq wo bo' ks vs (ix3 (0 : Fin 1) p c)
      = attention S1 S2 Wq Wk Wv Wo bo (ix3 b ⟨n0 + p.val, by have := p.isLt; omega⟩ c) := by
  have hn : n0 + p.val < 2048 := by have := p.isLt; omega
  -- the row's scores are the attention's scores of query row `n0 + p`
  have hs : srow x0 wq ks p = score S1 S2 Wq Wk b ⟨n0 + p.val, hn⟩ := by
    funext m
    unfold srow score
    refine Finset.sum_congr rfl fun e _ => ?_
    rw [hks]
    refine congrArg (· * proj S1 Wk b m e) ?_
    unfold qrow proj
    exact Finset.sum_congr rfl fun d _ => by rw [hx0, hwq]
  -- the value cache's column `e` is the value projection at inner channel `e`
  have hvc : ∀ e : Fin 1024, vcol vs e = fun m => proj S1 Wv b m e := fun e => funext fun m => hvs m e
  have ht : ∀ k, IsReal (srow x0 wq ks p k) := fun k => by
    rw [hs]
    exact score_isReal h1 h2 hq hk b _ k
  have hvr : ∀ (e : Fin 1024) (k : Fin 2048), IsReal (vcol vs e k) := fun e k => by
    rw [show vcol vs e k = proj S1 Wv b k e from hvs k e]
    exact proj_isReal h1 hv b k e
  rw [TileRow.tile_apply]
  show _ = (∑ e : Fin 1024, attended S1 S2 Wq Wk Wv b ⟨n0 + p.val, hn⟩ e * Wo (ix2 e c)) + bo (ix1 c)
  rw [hbo]
  refine congrArg (· + bo (ix1 c)) (Finset.sum_congr rfl fun e _ => ?_)
  rw [hwo, run_div _ _ ht (hvr e), attended_eq_deferred h1 h2 hq hk hv, hs, hvc]

end Cert.KernelIdeal.TileAttention

end
-- ==== Proof.KernelFinal.lean ====
/-
  The kernel's result array after the run is the attention function of the arguments as launched.

  What grid point `t` writes back is `tile` of its loads and its batch's cached projections, which — the entries
  being reals — is the attention function on rows `256·(t % 8) …` of batch `t / 8`: exactly the block of the result
  array the point's window names. The 64 blocks fill the array, so the array is the attention function everywhere.
-/
import proofs.«173240_j14663018348623_2_alg».proof.Proof.KernelCaches
import proofs.«173240_j14663018348623_2_alg».proof.Proof.KernelCover
import proofs.«173240_j14663018348623_2_alg».proof.Proof.TileAttention

noncomputable section

namespace Cert.KernelIdeal.Final

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Pieces Cert.KernelIdeal.Caches
open Cert.KernelIdeal.TileAttention Cert.SoftmaxRow Cert.Attention

variable (m : (ℓ : Loc nD τ sig) → Buf (Elt Ideal) ℓ) (ρ : Dev nD → PrngReg)

/-- The result: the attention function of the argument arrays as launched on core `c`. -/
abbrev result (c : Dev nD) : S8x2048x512.Idx → EReal :=
  attention (aS1 m c) (aS2 m c) (aWq m c) (aWk m c) (aWv m c) (aWo m c) (abo m c)

/-- The entries the softmax law needs to be reals: both sources and the three input projections' weights. -/
def Reals (c : Dev nD) : Prop :=
  (∀ i, IsReal (aS1 m c i)) ∧ (∀ i, IsReal (aS2 m c i)) ∧ (∀ i, IsReal (aWq m c i)) ∧ (∀ i, IsReal (aWk m c i))
    ∧ (∀ i, IsReal (aWv m c i))

/-- Point `t`'s output block, index by index, is the attention function read through the point's block. -/
theorem block_eq (c : Dev nD) (hr : Reals m c) (t : Fin cfg0.N) (j : S1x256x512.Idx) :
    tile (iblk m c 0 t) (iblk m c 2 t) (iblk m c 5 t) (iblk m c 6 t) (keyCache m c (batch t)) (valCache m c (batch t)) j
      = result m c (((cfg0.win 7).blk t).view.emb j) := by
  obtain ⟨u, p, k, rfl⟩ : ∃ (u : Fin 1) (p : Fin 256) (k : Fin 512), j = ix3 u p k := ⟨j 0, j 1, j 2, eq_ix3 j⟩
  obtain rfl : u = 0 := Subsingleton.elim _ _
  obtain ⟨h1, h2, hq, hk, hv⟩ := hr
  have e7 := idx_facts t
  rw [tile_eq_attention (aS1 m c) (aS2 m c) (aWq m c) (aWk m c) (aWv m c) (aWo m c) (abo m c) h1 h2 hq hk hv (batch t)
    (row0 t) (row0_le t) (iblk m c 0 t) (fun p d => Blocks.tile_apply m c t p d) (iblk m c 2 t) (fun d e => wq_apply m c t d e)
    (iblk m c 5 t) (fun e k => wo_apply m c t e k) (iblk m c 6 t) (fun k => bias_apply m c t k)
    (keyCache m c (batch t)) (fun e r => rfl) (valCache m c (batch t)) (fun r e => rfl) p k]
  refine congrArg (result m c) (funext fun a => Fin.ext ?_)
  match a with
  | ⟨0, _⟩ => show t.val / 8 = win0_7.index t (0 : Fin 3) * 1 + 1 * 0; omega
  | ⟨1, _⟩ => show (t.val % 8) * 256 + p.val = win0_7.index t (1 : Fin 3) * 256 + 1 * p.val; omega
  | ⟨2, _⟩ => show k.val = win0_7.index t (2 : Fin 3) * 512 + 1 * k.val; omega

/-- WHAT POINT `t` WRITES BACK is block `t` of the attention function. -/
theorem flushed_eq (c : Dev nD) (hr : Reals m c) (t : Fin cfg0.N) :
    (dats m 0 c).flushed 7 t = ((cfg0.win 7).blk t).view.read (Elt Ideal) (result m c) := by
  rw [Cert.KernelIdeal.Value.flushed7, out_eq]
  funext j
  exact block_eq m c hr t j

/-- THE ARRAY after the run is the attention function. -/
theorem final (c : Dev nD) (hr : Reals m c) : (dats m 0 c).arrAt 7 cfg0.N = result m c :=
  (dats m 0 c).arrAt_eq_of_cover 7 (result m c) (fun t _ => flushed_eq m c hr t) cover

/-- The run, read: the result array at the attention function of the arguments, the arguments unchanged. -/
theorem run (hr : ∀ c, Reals m c) : θ_run defs (onTc (τ := τ) (main (F := Ideal))) ⟨m, fun _ => 0, ρ⟩ fun r => ∀ c : Dev nD,
      r.2.mem ((c : Thread nD τ).loc main_v5) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c (hr c)), (h c).2⟩) (Cert.KernelIdeal.Value.run_blocks m ρ)

end Cert.KernelIdeal.Final

end
-- ==== Proof.LibLastAxisMax.lean ====
/-
  The host's maximum over the LAST axis of an `[n, a, b]` array, read at an index written by its coordinates.

  A softmax over the last axis takes, for each `(k, p)`, the maximum of the `b` entries `(k, p, c)`. At the ideal values
  the host's reduction is the fold of `max`, from the initial value, over `c : Fin b` of those entries: no order of
  evaluation is left in it. Nothing here mentions a program.
-/
import Idealize.ShloMosaic.PureOps.Ideal.Laws
import Idealize.ShloMosaic.Lib.Pipeline.Value
import Idealize.ShloMosaic.Lib.ValueIdx

namespace Cert.LastAxisMax

open Idealize.ShloMosaic Idealize.ShloMosaic.ValueIdx

variable {φ : FTy}

/-- The host's maximum over the LAST axis of an `[n, a, b]` array, at `(k, p)`: the fold of `max`, from the initial value,
    over `c : Fin b` of the entries `(k, p, c)`. -/
theorem hostLastMax_apply {n a b : ℕ} {u : Shape} (x : (⟨3, ![n, a, b]⟩ : Shape).Idx → Ideal φ) (init : u.Idx → Ideal φ)
    (h' : (⟨3, ![n, a, b]⟩ : Shape).ReducesTo [2] ⟨2, ![n, a]⟩) (h : (⟨3, ![n, a, b]⟩ : Shape).Reduces [2] ⟨2, ![n, a]⟩)
    (hu : 0 < u.numel) (k : Fin n) (p : Fin a) :
    Host.reduce (FloatOps.maximumf (F := Ideal) (φ := φ)) x init h' hu (ix2 k p)
      = (Finset.univ : Finset (Fin b)).fold max (init (Shape.Idx.first hu)) (fun c => x (ix3 k p c)) := by
  refine (Host.reduce_eq_fold_single (FloatOps.maximumf (F := Ideal) (φ := φ)) x init h' h hu (ix2 k p)).trans ?_
  show (Finset.univ : Finset (Fin b)).fold max (init (Shape.Idx.first hu)) (fun c => x (h.lift (ix2 k p) c)) = _
  refine congrArg (fun f => (Finset.univ : Finset (Fin b)).fold max (init (Shape.Idx.first hu)) f) (funext fun c => ?_)
  exact congrArg x (funext fun ax => Fin.ext (by match ax with | ⟨0, _⟩ => rfl | ⟨1, _⟩ => rfl | ⟨2, _⟩ => rfl))

end Cert.LastAxisMax
-- ==== Proof.ReferenceValue.lean ====
/-
  The reference's result, at the exact instance, is the attention function of the argument arrays.

  Read one operation at a time: three projections (contractions over the channel axis), the scores (a contraction
  over the inner channel, batch by batch), the row maximum from `-∞`, the weights `exp (t - max)`, their sum from
  `0`, every weight over the sum, the weighted sum of the value projections, the output projection and the bias.
-/
import proofs.«173240_j14663018348623_2_alg».proof.Proof.Gen.ReferenceIdeal.Read
import proofs.«173240_j14663018348623_2_alg».proof.Proof.Attention
import proofs.«173240_j14663018348623_2_alg».proof.Proof.LibLastAxisMax

noncomputable section

namespace Cert.ReferenceValue

open Idealize.ShloMosaic Idealize.ShloMosaic.ValueIdx Cert.ReferenceIdeal Cert.SoftmaxRow Cert.Attention
open Cert.ReferenceIdeal.Read

/-- Two rank-3 indices with the same three coordinates are equal. -/
local macro "idx3" : tactic =>
  `(tactic| (funext a; match a with | ⟨0, _⟩ => rfl | ⟨1, _⟩ => rfl | ⟨2, _⟩ => rfl))
/-- Two rank-2 indices with the same two coordinates are equal. -/
local macro "idx2" : tactic =>
  `(tactic| (funext a; match a with | ⟨0, _⟩ => rfl | ⟨1, _⟩ => rfl))
/-- Two rank-1 indices with the same coordinate are equal. -/
local macro "idx1" : tactic =>
  `(tactic| (funext a; match a with | ⟨0, _⟩ => rfl))

variable (x0 x1 : FVec Ideal S8x2048x512 .f32) (x2 x3 x4 : FVec Ideal S512x1024 .f32)
  (x5 : FVec Ideal S1024x512 .f32) (x6 : FVec Ideal S512 .f32)

/-- The query projection: the second sequence array against the query weights. -/
theorem v0_eq (b : Fin 8) (n : Fin 2048) (e : Fin 1024) :
    val_main_v0 (F := Ideal) x1 x2 (ix3 b n e) = proj x1 x2 b n e := by
  rw [val_main_v0_apply]
  unfold proj
  refine Finset.sum_congr rfl fun d _ => ?_
  have hl : lidx_main_v0 (ix3 b n e) d = ix3 b n d := by idx3
  have hr : ridx_main_v0 (ix3 b n e) d = ix2 d e := by idx2
  rw [hl, hr]

/-- The key projection: the first sequence array against the key weights. -/
theorem v1_eq (b : Fin 8) (n : Fin 2048) (e : Fin 1024) :
    val_main_v1 (F := Ideal) x0 x3 (ix3 b n e) = proj x0 x3 b n e := by
  rw [val_main_v1_apply]
  unfold proj
  refine Finset.sum_congr rfl fun d _ => ?_
  have hl : lidx_main_v1 (ix3 b n e) d = ix3 b n d := by idx3
  have hr : ridx_main_v1 (ix3 b n e) d = ix2 d e := by idx2
  rw [hl, hr]

/-- The value projection: the first sequence array against the value weights. -/
theorem v2_eq (b : Fin 8) (n : Fin 2048) (e : Fin 1024) :
    val_main_v2 (F := Ideal) x0 x4 (ix3 b n e) = proj x0 x4 b n e := by
  rw [val_main_v2_apply]
  unfold proj
  refine Finset.sum_congr rfl fun d _ => ?_
  have hl : lidx_main_v2 (ix3 b n e) d = ix3 b n d := by idx3
  have hr : ridx_main_v2 (ix3 b n e) d = ix2 d e := by idx2
  rw [hl, hr]

/-- The scores: query row `n` against key row `m`, batch by batch. -/
theorem v3_eq (b : Fin 8) (n m : Fin 2048) :
    val_main_v3 (F := Ideal) x0 x1 x2 x3 (ix3 b n m) = score x0 x1 x2 x3 b n m := by
  rw [val_main_v3_apply]
  unfold score
  refine Finset.sum_congr rfl fun e _ => ?_
  have hl : lidx_main_v3 (ix3 b n m) e = ix3 b n e := by idx3
  have hr : ridx_main_v3 (ix3 b n m) e = ix3 b m e := by idx3
  rw [hl, hr, v0_eq, v1_eq]

/-- The row maximum of the scores, taken from `-∞`. -/
theorem v4_eq (b : Fin 8) (n : Fin 2048) :
    val_main_v4 (F := Ideal) x0 x1 x2 x3 (ix2 b n) = rowMax (score x0 x1 x2 x3 b n) := by
  unfold val_main_v4
  rw [Cert.LastAxisMax.hostLastMax_apply _ _ _ (by decide) _ b n]
  unfold rowMax
  have hi : val_main_cst (F := Ideal) (Shape.Idx.first Facts₀.h_S_) = ⊥ := ofBits_negInf
  rw [hi]
  exact congrArg (fun f => (Finset.univ : Finset (Fin 2048)).fold max (⊥ : EReal) f) (funext fun m => v3_eq x0 x1 x2 x3 b n m)

/-- The maximum with a broadcast `-∞` changes nothing. -/
theorem v6_eq (b : Fin 8) (n : Fin 2048) :
    val_main_v6 (F := Ideal) x0 x1 x2 x3 (ix2 b n) = rowMax (score x0 x1 x2 x3 b n) := by
  rw [val_main_v6_apply, val_main_v5_apply, val_main_cst_0_apply, v4_eq]
  show max (Ideal.ofBits .f32 0xFF800000#32) _ = _
  rw [ofBits_negInf, max_bot_left]

/-- The row maximum, broadcast back along the keys. -/
theorem v8_eq (b : Fin 8) (n m : Fin 2048) :
    val_main_v8 (F := Ideal) x0 x1 x2 x3 (ix3 b n m) = rowMax (score x0 x1 x2 x3 b n) := by
  rw [val_main_v8_apply, val_main_v7_apply]
  have hi : idx_main_v7 (idx_main_v8 (ix3 b n m)) = ix2 b n := by idx2
  rw [hi, v6_eq]

/-- The unnormalised weight `exp (t - max)`. -/
theorem v10_eq (b : Fin 8) (n m : Fin 2048) :
    val_main_v10 (F := Ideal) x0 x1 x2 x3 (ix3 b n m) = rowWt (score x0 x1 x2 x3 b n) m := by
  rw [val_main_v10_apply, val_main_v9_apply, v3_eq, v8_eq]
  rfl

/-- The normaliser: the sum of the weights, from `0`. -/
theorem v11_eq (b : Fin 8) (n : Fin 2048) :
    val_main_v11 (F := Ideal) x0 x1 x2 x3 (ix2 b n) = rowDen (score x0 x1 x2 x3 b n) := by
  rw [val_main_v11_apply, val_main_cst_1_apply]
  show Ideal.ofBits .f32 0x00000000#32 + _ = _
  rw [Ideal.ofBits_zero_f32, zero_add]
  unfold rowDen
  refine Finset.sum_congr rfl fun k _ => ?_
  have hi : idx_main_v11 (ix2 b n) k = ix3 b n k := by idx3
  rw [hi, v10_eq]

/-- The normaliser, broadcast back along the keys. -/
theorem v13_eq (b : Fin 8) (n m : Fin 2048) :
    val_main_v13 (F := Ideal) x0 x1 x2 x3 (ix3 b n m) = rowDen (score x0 x1 x2 x3 b n) := by
  rw [val_main_v13_apply, val_main_v12_apply]
  have hi : idx_main_v12 (idx_main_v13 (ix3 b n m)) = ix2 b n := by idx2
  rw [hi, v11_eq]

/-- Every weight over the normaliser. -/
theorem v14_eq (b : Fin 8) (n m : Fin 2048) :
    val_main_v14 (F := Ideal) x0 x1 x2 x3 (ix3 b n m)
      = Ideal.div (rowWt (score x0 x1 x2 x3 b n) m) (rowDen (score x0 x1 x2 x3 b n)) := by
  rw [val_main_v14_apply, v10_eq, v13_eq]
  rfl

/-- The attended value: the normalised weights against the value projections. -/
theorem v15_eq (b : Fin 8) (n : Fin 2048) (e : Fin 1024) :
    val_main_v15 (F := Ideal) x0 x1 x2 x3 x4 (ix3 b n e) = attended x0 x1 x2 x3 x4 b n e := by
  rw [val_main_v15_apply]
  unfold attended attnNormalised
  refine Finset.sum_congr rfl fun k _ => ?_
  have hl : lidx_main_v15 (ix3 b n e) k = ix3 b n k := by idx3
  have hr : ridx_main_v15 (ix3 b n e) k = ix3 b k e := by idx3
  rw [hl, hr, v14_eq, v2_eq]

/-- The reference's last stage is the attention function, index by index. -/
theorem reference_eq (x0 x1 : FVec Ideal S8x2048x512 .f32) (x2 x3 x4 : FVec Ideal S512x1024 .f32)
    (x5 : FVec Ideal S1024x512 .f32) (x6 : FVec Ideal S512 .f32) :
    Cert.ReferenceIdeal.Read.val_main_v19 (F := Ideal) x0 x1 x2 x3 x4 x5 x6 = attention x0 x1 x2 x3 x4 x5 x6 := by
  funext i
  obtain ⟨b, n, c, rfl⟩ : ∃ b n c, i = ix3 b n c := ⟨i 0, i 1, i 2, eq_ix3 i⟩
  rw [val_main_v19_apply, val_main_v16_apply, val_main_v18_apply, val_main_v17_apply]
  unfold attention
  have hb : idx_main_v17 (idx_main_v18 (ix3 b n c)) = ix1 c := by idx1
  rw [hb]
  show _ + _ = _
  refine congrArg (· + x6 (ix1 c)) (Finset.sum_congr rfl fun e _ => ?_)
  have hl : lidx_main_v16 (ix3 b n c) e = ix3 b n e := by idx3
  have hr : ridx_main_v16 (ix3 b n c) e = ix2 e c := by idx2
  rw [hl, hr, v15_eq]

end Cert.ReferenceValue

end
-- ==== Proof.Finite.lean ====
/-
  Under the precondition every entry of every argument array is a real number.

  The precondition is a conjunction, array by array, of "every entry's absolute value is below `+∞`"; on the
  extended reals an entry whose absolute value is below `+∞` is neither infinity, so it is a real.
-/
import proofs.«173240_j14663018348623_2_alg».proof.Proof.Gen.Pre_finite_inputs
import proofs.«173240_j14663018348623_2_alg».proof.Proof.LibSoftmaxRow
import Idealize.ShloMosaic.Lib.ReduceAll
import Idealize.ShloMosaic.Lib.ValueIdx

noncomputable section

namespace Cert.Finite

open Idealize.ShloMosaic Idealize.ShloMosaic.ValueIdx Cert.Pre_finite_inputs Cert.SoftmaxRow

local instance : Subsingleton S_.Idx := ⟨fun a b => funext fun d => d.elim0⟩

/-- An extended real whose absolute value is below `+∞` is a real number. -/
theorem isReal_of_abs_lt (x : Ideal .f32)
    (h : FloatOps.cmpf .olt (FloatOps.hostAbsf x) (FloatOps.ofBits (F := Ideal) .f32 0x7F800000#32) = 1#1) : IsReal x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  unfold Ideal.cmp at h'
  have hlt : max (x : EReal) (-(x : EReal)) < ⊤ := by
    by_contra hn
    simp [hn] at h'
  induction x using EReal.rec with
  | bot => simp at hlt
  | coe r => exact ⟨r, rfl⟩
  | top => simp at hlt

/-- An array whose test "every entry's absolute value is below `+∞`" came out 1 has real entries. -/
theorem all_real {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ix0 = 1#1) (i : s.Idx) : IsReal (x i) :=
  isReal_of_abs_lt (x i) (Host.reduce_andi_all _ _ hr hu ix0 e i)

/-- All seven arrays hold reals when the precondition's value is all ones. -/
theorem real_of_pre [Cert.Pre_finite_inputs.Facts] (x0 x1 : FVec Ideal S8x2048x512 .f32) (x2 x3 x4 : FVec Ideal S512x1024 .f32)
    (x5 : FVec Ideal S1024x512 .f32) (x6 : FVec Ideal S512 .f32)
    (h : Cert.Pre_finite_inputs.fn (F := Ideal) x0 x1 x2 x3 x4 x5 x6 = fun _ => 1#1) :
    (∀ i, IsReal (x0 i)) ∧ (∀ i, IsReal (x1 i)) ∧ (∀ i, IsReal (x2 i)) ∧ (∀ i, IsReal (x3 i)) ∧ (∀ i, IsReal (x4 i))
      ∧ (∀ i, IsReal (x5 i)) ∧ (∀ i, IsReal (x6 i)) := by
  have h0 := congrFun h ix0
  dsimp only [fn, fn_part1] at h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨all_real x0 _ _ _ e0, all_real x1 _ _ _ e1, all_real x2 _ _ _ e2, all_real x3 _ _ _ e3, all_real x4 _ _ _ e4,
    all_real x5 _ _ _ e5, all_real x6 _ _ _ e6⟩

end Cert.Finite

end
-- ==== Proof.lean ====
/-
  Fused cross-attention against its reference, on the extended reals.

  Both programs compute, for batch `b`, query row `n` and output channel `k`,
      out[b,n,k] = ∑_e ( ∑_m softmax_m(t[b,n,·])_m · V[b,m,e] ) · Wo[e,k] + bo[k],
  with Q = S2·Wq, K = S1·Wk, V = S1·Wv and scores t[b,n,m] = ∑_e Q[b,n,e]·K[b,m,e] (no scaling).

  The reference takes the softmax whole: the row maximum from `-∞`, the weights `exp (t - max)`, every weight over
  their sum, then the weighted sum of the values. The kernel works tile by tile (256 query rows of one batch per
  grid point): at a batch's first tile it projects the batch's keys (kept transposed) and values once and keeps
  them for the seven tiles that follow; within a tile it takes the 2048 keys in four chunks of 512 with a running
  maximum, rescaling the sums so far by `exp (old max - new max)`, and divides the weighted sum by the normaliser
  ONCE at the end, before the output projection. Changes of float format are the identity here.

  The two agree because the argument arrays hold real numbers (the precondition): then scores and values are reals,
  `exp x · exp y = exp (x + y)` and distributivity hold, the running softmax after four chunks is the whole one with
  the quotient taken once, and a quotient by a positive real taken once or weight by weight is the same. The result
  array is assembled block by block: the 64 tiles' blocks fill it. The kernel's idealization rewrote nothing, so
  that claim is trivial; the three frames are the generated ones.
-/
import proofs.«173240_j14663018348623_2_alg».proof.Defs
import proofs.«173240_j14663018348623_2_alg».proof.Proof.Gen.Kernel
import proofs.«173240_j14663018348623_2_alg».proof.Proof.Gen.Kernel.Skeleton
import proofs.«173240_j14663018348623_2_alg».proof.Proof.Gen.Kernel.Launch
import proofs.«173240_j14663018348623_2_alg».proof.Proof.Gen.Kernel.Points
import proofs.«173240_j14663018348623_2_alg».proof.Proof.Gen.Kernel.Frame
import proofs.«173240_j14663018348623_2_alg».proof.Proof.Gen.KernelIdeal
import proofs.«173240_j14663018348623_2_alg».proof.Proof.Gen.KernelIdeal.Skeleton
import proofs.«173240_j14663018348623_2_alg».proof.Proof.Gen.KernelIdeal.Launch
import proofs.«173240_j14663018348623_2_alg».proof.Proof.Gen.KernelIdeal.Points
import proofs.«173240_j14663018348623_2_alg».proof.Proof.Gen.KernelIdeal.Frame
import proofs.«173240_j14663018348623_2_alg».proof.Proof.Gen.ReferenceIdeal
import proofs.«173240_j14663018348623_2_alg».proof.Proof.Gen.KernelIdeal.Value
import proofs.«173240_j14663018348623_2_alg».proof.Proof.Gen.ReferenceIdeal.Run
import proofs.«173240_j14663018348623_2_alg».proof.Proof.Gen.ReferenceIdeal.Read
import proofs.«173240_j14663018348623_2_alg».proof.Proof.Gen.Pre_finite_inputs
import proofs.«173240_j14663018348623_2_alg».proof.Proof.KernelFinal
import proofs.«173240_j14663018348623_2_alg».proof.Proof.ReferenceValue
import proofs.«173240_j14663018348623_2_alg».proof.Proof.Finite
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Under the precondition the sources and the input projections' weights hold reals, on every core. -/
theorem reals_of_pre (m : (ℓ : Loc Cert.KernelIdeal.nD Cert.KernelIdeal.τ Cert.KernelIdeal.sig) → Buf (Elt Ideal) ℓ)
    (hpre : Cert.Pre_KernelIdeal m) (c : Dev Cert.KernelIdeal.nD) : Cert.KernelIdeal.Final.Reals m c := by
  obtain ⟨h0, h1, h2, h3, h4, -, -⟩ := Cert.Finite.real_of_pre _ _ _ _ _ _ _ (hpre c)
  exact ⟨h0, h1, h2, h3, h4⟩

/-- Both runs end with the result at the attention function of the (agreeing) arguments. -/
theorem algebraic : Cert.algebraic_KernelIdeal_ReferenceIdeal := by
  intro m ρ m' ρ' hpre hagree
  refine ⟨fun c => Cert.KernelIdeal.Final.result m c, Cert.KernelIdeal.Final.run m ρ (reals_of_pre m hpre), ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [a0, a1, a2, a3, a4, a5, a6]
  exact (Cert.ReferenceIdeal.Read.val_main_v19_eq _ _ _ _ _ _ _).trans (Cert.ReferenceValue.reference_eq _ _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
